-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x1 .f32) (main_arg1 : IVec S2x1600000 32) (main_arg2 : IVec S100000 32) (main_arg3 : FVec F S1x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x1 : Shape := ⟨2, ![10000, 1]⟩
abbrev S10000x128 : Shape := ⟨2, ![10000, 128]⟩
abbrev S1700000x128 : Shape := ⟨2, ![1700000, 128]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩

abbrev nBuf : Space → Nat
  | .hbm => 136
  | .vmem => 38
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S_, .f32⟩
  | 116 => ⟨S2048x128, .f32⟩
  | 117 => ⟨S100000x1, .i32⟩
  | 118 => ⟨S2048x128, .f32⟩
  | 119 => ⟨S_, .f32⟩
  | 120 => ⟨S100000, .f32⟩
  | 121 => ⟨S_, .f32⟩
  | 122 => ⟨S2048, .f32⟩
  | 123 => ⟨S100000x1, .i32⟩
  | 124 => ⟨S2048, .f32⟩
  | 125 => ⟨S_, .f32⟩
  | 126 => ⟨S2048, .f32⟩
  | 127 => ⟨S2048, .f32⟩
  | _ => ⟨S100000x1, .f32⟩

abbrev hbmTy0_1 (i : Nat) : BufTy := match i % 128 with
  | 0 => ⟨S2048x1, .f32⟩
  | 1 => ⟨S2048x128, .f32⟩
  | 2 => ⟨S2048x128, .f32⟩
  | 3 => ⟨S1x128, .f32⟩
  | 4 => ⟨S1x128, .f32⟩
  | 5 => ⟨S1x1, .f32⟩
  | 6 => ⟨S2048x1, .f32⟩
  | 7 => ⟨S2048, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S2048x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x1, .f32⟩
  | .local _ .vmem, ⟨36, _⟩ => ⟨S1x1, .f32⟩
  | .local _ .vmem, ⟨37, _⟩ => ⟨S2048x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_16 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg6_0 : Ref sig .tc := ⟨.vmem, 36, rfl⟩
abbrev cc6_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35
abbrev cc6_sem6_0 : DmaSem sig := 36
abbrev cc6_sem7_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S2048x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x1_S1x128_S10000x128_1_0_0_1_n_n_wf : DotDims.WF S10000x1 S1x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S2048x128.size a
  hwx6_0 : ∀ i : grid6.Coords, EltTy.bits .f32 = 32 ∨ (Rect.block (s := S2048x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S2048x1.size a ≤ S2048x1.size a
  hwx6_7 : ∀ i : grid6.Coords, EltTy.bits .f32 = 32 ∨ (Rect.block (s := S2048x1) S2048x1.size (cc6_transform_7 i) (hinb6_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S2048x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v93) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v95) S2048x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x128, .f32⟩
  | 91 => ⟨S1700000x1, .f32⟩
  | 92 => ⟨S1700000x128, .f32⟩
  | 93 => ⟨S1700000x128, .f32⟩
  | 94 => ⟨S_, .f32⟩
  | 95 => ⟨S100000x128, .f32⟩
  | 96 => ⟨S1700000x1, .i32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x1, .f32⟩

abbrev hbmTy0_1 (i : Nat) : BufTy := match i % 128 with
  | 0 => ⟨S2048x128, .f32⟩
  | 1 => ⟨S100000x1, .i32⟩
  | 2 => ⟨S2048x128, .f32⟩
  | 3 => ⟨S_, .f32⟩
  | 4 => ⟨S100000, .f32⟩
  | 5 => ⟨S_, .f32⟩
  | 6 => ⟨S2048, .f32⟩
  | 7 => ⟨S100000x1, .i32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x128, .f32⟩
  | 14 => ⟨S2048x128, .f32⟩
  | 15 => ⟨S2048x128, .f32⟩
  | 16 => ⟨S1x128, .f32⟩
  | 17 => ⟨S2048x128, .f32⟩
  | 18 => ⟨S2048x128, .f32⟩
  | 19 => ⟨S_, .f32⟩
  | 20 => ⟨S2048x128, .f32⟩
  | 21 => ⟨S2048x128, .f32⟩
  | 22 => ⟨S2048x128, .f32⟩
  | 23 => ⟨S1x128, .f32⟩
  | 24 => ⟨S2048x128, .f32⟩
  | 25 => ⟨S2048x128, .f32⟩
  | 26 => ⟨S_, .f32⟩
  | 27 => ⟨S2048x128, .f32⟩
  | 28 => ⟨S2048x128, .f32⟩
  | 29 => ⟨S2048x1, .f32⟩
  | 30 => ⟨S1x1, .f32⟩
  | 31 => ⟨S2048x1, .f32⟩
  | 32 => ⟨S2048x1, .f32⟩
  | 33 => ⟨S2048, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call3_cst : Ref sig .tc := ⟨.hbm, 124, rfl⟩
abbrev main_call3_v0 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_cst_18 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_19 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call4_cst : Ref sig .tc := ⟨.hbm, 147, rfl⟩
abbrev main_call4_v0 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call5_cst : Ref sig .tc := ⟨.hbm, 154, rfl⟩
abbrev main_call5_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x128_S100000x128_1_0_0_1_n_n_wf : DotDims.WF S100000x1 S1x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KernelRun.lean ====
/-
  The idealized kernel's run, read at every buffer.

  The program is seven pipelined kernel calls among stretches of host operations. Its run is a fold over fifteen
  segments: at every boundary between two segments the device's unscoped buffers hold a known valuation, a stretch of
  host operations rewriting the buffers it writes and a kernel call replacing its arrays by what its write-backs
  leave. After every weakly fair execution each unscoped buffer therefore holds the LAST valuation of that fold. The
  frame claim keeps only the argument arrays of it; a claim about the result needs the result's buffer too, so the
  launch is stated here with the whole last valuation in its post, and the result is one instance.
-/
import proofs.«175258_j44633300140823_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and leaves every unscoped buffer of every
    device at the valuation the fold over the segments ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result array after the run: the last valuation at the result's buffer. -/
theorem run_result : θ_run defs (onTc (τ := τ) (main (F := F))) ⟨m, fun _ => 0, ρ⟩ (fun r => ∀ c : Dev nD,
      r.2.mem ((c.tc : Thread nD τ).loc main_v96) = W15 m ρ c (Proc.devRef .tc main_v96)) :=
  (θ_run defs _ _).mono (fun r h c => h c _ (mem_uc main_v96 (by decide))) (run_all m ρ)

/-- The same run with the result at the last valuation and every argument array as launched: no host operation and no
    kernel call writes an argument, so the fold at an argument's buffer walks back to the launch memory. -/
theorem run_result_args : θ_run defs (onTc (τ := τ) (main (F := F))) ⟨m, fun _ => 0, ρ⟩ (fun r => ∀ c : Dev nD,
      r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v96 (by decide)),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c),
      (h c _ (mem_uc main_arg14 (by decide))).trans (W15_main_arg14 m ρ c)⟩) (run_all m ρ)

end Cert.KernelIdeal.Result

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibRowTiledDot.lean ====
/-
  A block of rows of a matrix product is the product of that block of rows.

  A kernel that tiles the rows of the left factor multiplies, at each tile, a block of b rows [b, K] (narrowed to bf16,
  which changes nothing on the extended reals) by the whole right factor [K, N] into a zero accumulator. Entry (p, q) of
  that block product is the sum over k of x0 (p, k) · x1 (k, q); entry (g, q) of the host's product of the whole matrices
  is the sum over k of A (g, k) · B (k, q). When row p of the block is row g of the whole left factor and the right
  factors agree, the two sums are the same sum, term by term: no finiteness is needed, and no reordering.
-/
import Idealize.ShloMosaic.Lib.ValueIdx
import Idealize.ShloMosaic.Lib.Pipeline.Value
import Idealize.ShloMosaic.PureOps.Ideal.Laws
import proofs.«175258_j44633300140823_1_alg».proof.Proof.LibPlainDot
import proofs.«175258_j44633300140823_1_alg».proof.Proof.LibHostDot

noncomputable section

namespace Cert.Lib.RowTiledDot

open Idealize.ShloMosaic Idealize.ShloMosaic.ValueIdx

variable {M K N b : ℕ}

/-- Entry (p, q) of the kernel's product of a block of rows is entry (g, q) of the host's product of the whole
    matrices, when row p of the block is row g of the whole left factor (h0) and column q of the block's right factor
    is column q of the whole right factor (h1). -/
theorem block_entry_eq_host (h : FTy.bits .bf16 < FTy.bits .f32)
    (A : FVec Ideal ⟨2, ![M, K]⟩ .f32) (B : FVec Ideal ⟨2, ![K, N]⟩ .f32)
    (x0 : FVec Ideal ⟨2, ![b, K]⟩ .f32) (x1 : FVec Ideal ⟨2, ![K, N]⟩ .f32)
    (p : Fin b) (q : Fin N) (g : Fin M)
    (h0 : ∀ k : Fin K, x0 (ix2 p k) = A (ix2 g k)) (h1 : ∀ k : Fin K, x1 (ix2 k q) = B (ix2 k q)) :
    matmul (DotDims.plain b K N) none (truncf .bf16 x0 h) (truncf .bf16 x1 h)
        (constant (F := Ideal) ⟨2, ![b, N]⟩ .f32 0x00000000#32) (ix2 p q)
      = Host.dotGeneral (F := Ideal) (DotDims.plain M K N) none A B (ix2 g q) := by
  rw [Cert.PlainDot.matmul_zero_plain_apply, Cert.HostDot.dotGeneral_plain_apply]
  refine Finset.sum_congr rfl fun k _ => ?_
  show x0 (ix2 p k) * x1 (ix2 k q) = _
  rw [h0 k, h1 k]

end Cert.Lib.RowTiledDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«175258_j44633300140823_1_alg».proof.Proof.LibPlainDot
import proofs.«175258_j44633300140823_1_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.RegionDense.lean ====
/-
  The three projection regions: a matrix product computed block of rows by block of rows is the product of the whole
  matrices.

  Each of the three regions multiplies a tall left matrix (100000 rows) by a small right matrix. The grid has 10
  points; at point i the region reads the block of rows 10000·i … 10000·i + 9999 of the left matrix, the WHOLE right
  matrix, and writes the block of rows 10000·i … 10000·i + 9999 of the result: both factors narrowed to bf16 (which
  changes nothing on the extended reals), multiplied into a zero accumulator. The first region's left matrix has one
  column and its right matrix one row (an outer product); the other two have a [100000, 128] left matrix and a
  [128, 128] right matrix.

  Entry (p, q) of a block's product is the sum over k of x (p, k) · w (k, q): it reads row p of the block only, and
  row p of block i IS row 10000·i + p of the whole left matrix (an element of a block sits in its array at
  block index × block size + its coordinate in the block; the block indices are read off the printed index maps once,
  over the ten points). Entry (10000·i + p, q) of the host's product of the whole matrices is the same sum over the same
  row and the same column, term by term: no finiteness and no reordering is used. So what point i writes back is
  block i of ONE whole-array function, the host's product of the region's two input arrays; the ten blocks are
  restrictions of that one function, and they cover every row (row r lies in block r / 10000). An array all of whose
  indices are covered by blocks of one function ends holding that function.

  Per region: the payload read at an entry (block_entry), the block indices at every point (block_index, decided over
  the grid; block_index_onto: every block index 0 … 9 is some point's), what a point writes back (written_eq), which
  array indices a point's block holds (mem_block), the cover (rows_covered), and the region's array after the run
  (dense0, dense2, dense4).
-/
import proofs.«175258_j44633300140823_1_alg».proof.Proof.Gen.KernelIdeal.Frame
import proofs.«175258_j44633300140823_1_alg».proof.Proof.LibRowTiledDot
import proofs.«175258_j44633300140823_1_alg».proof.Proof.LibDenseBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- A staging buffer is loaded and stored whole: through the rectangle at zero offsets. -/
theorem zero_offsets : (![0, 0] : Fin 2 → Nat) = fun _ => 0 := funext fun a => by fin_cases a <;> rfl

/-- The [10000, 128] · [128, 128] product's printed dimension record is the plain one. -/
theorem dot_wide_plain : dot_S10000x128_S128x128_S10000x128_1_0_0_1_n_n = DotDims.plain 10000 128 128 := rfl

/-- The [10000, 1] · [1, 128] product's printed dimension record is the plain one. -/
theorem dot_thin_plain : dot_S10000x1_S1x128_S10000x128_1_0_0_1_n_n = DotDims.plain 10000 1 128 := rfl

/-! ## Region 2: [100000, 128] · [128, 128] -/

/-- A block's product at an entry is the whole product at the block row's place in the array. -/
theorem block_entry2 (A : FVec Ideal ⟨2, ![100000, 128]⟩ .f32) (B : FVec Ideal ⟨2, ![128, 128]⟩ .f32)
    (x0 : FVec Ideal S10000x128 .f32) (x1 : FVec Ideal S128x128 .f32) (p : Fin 10000) (q : Fin 128) (g : Fin 100000)
    (h0 : ∀ k : Fin 128, x0 (ix2 p k) = A (ix2 g k)) (h1 : ∀ k : Fin 128, x1 (ix2 k q) = B (ix2 k q)) :
    k2_pay1 x0 x1 (ix2 p q)
      = Host.dotGeneral (F := Ideal) (φ₁ := .f32) (φ₂ := .f32) (DotDims.plain 100000 128 128) none A B (ix2 g q) := by
  unfold k2_pay1
  rw [shapeCast_self, dot_wide_plain]
  exact Cert.Lib.RowTiledDot.block_entry_eq_host bitsLt_bf16_f32 A B x0 x1 p q g h0 h1

/-- The host's product of the region's two input arrays as the region finds them. -/
abbrev product2 : FVec Ideal ⟨2, ![100000, 128]⟩ .f32 :=
  Host.dotGeneral (F := Ideal) (φ₁ := .f32) (φ₂ := .f32) (DotDims.plain 100000 128 128) none
    (V c main_v47 : FVec Ideal ⟨2, ![100000, 128]⟩ .f32) (V c main_arg5 : FVec Ideal ⟨2, ![128, 128]⟩ .f32)

/-- The block indices at every point: the left matrix's block moves with the output's down the rows, the right matrix
    stays whole, and the output's block index is at most 9. -/
theorem block_index2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block of rows is some point's. -/
theorem block_index_onto2 : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product. -/
theorem written2_eq (t : Fin cfg2.N) :
    (dat2 (F := Ideal) V c).flushed 2 t = ((cfg2.win 2).blk t).view.read (Elt Ideal) (product2 V c) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := block_index2 t
  funext j
  obtain ⟨p, q, rfl⟩ : ∃ (p : Fin 10000) (q : Fin 128), j = ix2 p q := ⟨j 0, j 1, eq_ix2 j⟩
  have hg : win2_2.index t (0 : Fin 2) * 10000 + p.val < 100000 := by have := p.isLt; omega
  have hemb : ((cfg2.win 2).blk t).view.emb (ix2 p q)
      = ix2 (⟨win2_2.index t (0 : Fin 2) * 10000 + p.val, hg⟩ : Fin 100000) q := by
    funext a; apply Fin.ext
    match a with
    | ⟨0, _⟩ => show win2_2.index t (0 : Fin 2) * 10000 + 1 * p.val = win2_2.index t (0 : Fin 2) * 10000 + p.val; omega
    | ⟨1, _⟩ => show win2_2.index t (1 : Fin 2) * 128 + 1 * q.val = q.val; omega
  show k2_pay1 (iblk2 V c 0 t) (iblk2 V c 1 t) (ix2 p q) = product2 V c (((cfg2.win 2).blk t).view.emb (ix2 p q))
  rw [hemb]
  refine block_entry2 _ _ _ _ p q _ (fun k => ?_) (fun k => ?_)
  · show V c main_v47 (((cfg2.win 0).blk t).view.emb (ix2 p k))
      = V c main_v47 (ix2 (⟨win2_2.index t (0 : Fin 2) * 10000 + p.val, hg⟩ : Fin 100000) k)
    refine congrArg (V c main_v47) ?_
    funext a; apply Fin.ext
    match a with
    | ⟨0, _⟩ => show win2_0.index t (0 : Fin 2) * 10000 + 1 * p.val = win2_2.index t (0 : Fin 2) * 10000 + p.val; omega
    | ⟨1, _⟩ => show win2_0.index t (1 : Fin 2) * 128 + 1 * k.val = k.val; omega
  · show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v48).slice (win2_2.rect t)).set ↔ _
  rw [View.set_slice_whole, Rect.mem_set_unit]
  exact Iff.rfl

/-- Every index of the output array is in some point's block: row r is in block r / 10000. -/
theorem rows_covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_index_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The region's output array after the run is the host's product of its two input arrays. -/
theorem dense2 : (dat2 (F := Ideal) V c).arrAt 2 cfg2.N
    = (Host.dotGeneral (F := Ideal) (φ₁ := .f32) (φ₂ := .f32) (DotDims.plain 100000 128 128) none
        (V c main_v47 : FVec Ideal ⟨2, ![100000, 128]⟩ .f32) (V c main_arg5 : FVec Ideal ⟨2, ![128, 128]⟩ .f32) : FVec Ideal ⟨2, ![100000, 128]⟩ .f32) :=
  (dat2 (F := Ideal) V c).arrAt_eq_of_cover 2 (product2 V c) (fun t _ => written2_eq V c t) (rows_covered2)

/-! ## Region 4: [100000, 128] · [128, 128] -/

/-- A block's product at an entry is the whole product at the block row's place in the array. -/
theorem block_entry4 (A : FVec Ideal ⟨2, ![100000, 128]⟩ .f32) (B : FVec Ideal ⟨2, ![128, 128]⟩ .f32)
    (x0 : FVec Ideal S10000x128 .f32) (x1 : FVec Ideal S128x128 .f32) (p : Fin 10000) (q : Fin 128) (g : Fin 100000)
    (h0 : ∀ k : Fin 128, x0 (ix2 p k) = A (ix2 g k)) (h1 : ∀ k : Fin 128, x1 (ix2 k q) = B (ix2 k q)) :
    k4_pay1 x0 x1 (ix2 p q)
      = Host.dotGeneral (F := Ideal) (φ₁ := .f32) (φ₂ := .f32) (DotDims.plain 100000 128 128) none A B (ix2 g q) := by
  unfold k4_pay1
  rw [shapeCast_self, dot_wide_plain]
  exact Cert.Lib.RowTiledDot.block_entry_eq_host bitsLt_bf16_f32 A B x0 x1 p q g h0 h1

/-- The host's product of the region's two input arrays as the region finds them. -/
abbrev product4 : FVec Ideal ⟨2, ![100000, 128]⟩ .f32 :=
  Host.dotGeneral (F := Ideal) (φ₁ := .f32) (φ₂ := .f32) (DotDims.plain 100000 128 128) none
    (V c main_v63 : FVec Ideal ⟨2, ![100000, 128]⟩ .f32) (V c main_arg7 : FVec Ideal ⟨2, ![128, 128]⟩ .f32)

/-- The block indices at every point: the left matrix's block moves with the output's down the rows, the right matrix
    stays whole, and the output's block index is at most 9. -/
theorem block_index4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every block of rows is some point's. -/
theorem block_index_onto4 : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the whole product. -/
theorem written4_eq (t : Fin cfg4.N) :
    (dat4 (F := Ideal) V c).flushed 2 t = ((cfg4.win 2).blk t).view.read (Elt Ideal) (product4 V c) := by
  show (cfg4.win 2).cut (grid4.coords t) ((dat4 (F := Ideal) V c).after 2 t) = _
  rw [after4_2]
  unfold out4_2
  rw [View.canon_unit_zero zero_offsets]
  simp only [View.ld_unit_zero (S := S10000x128) zero_offsets, View.ld_unit_zero (S := S128x128) zero_offsets]
  obtain ⟨e0, e1, e2, e3, e4, e5⟩ := block_index4 t
  funext j
  obtain ⟨p, q, rfl⟩ : ∃ (p : Fin 10000) (q : Fin 128), j = ix2 p q := ⟨j 0, j 1, eq_ix2 j⟩
  have hg : win4_2.index t (0 : Fin 2) * 10000 + p.val < 100000 := by have := p.isLt; omega
  have hemb : ((cfg4.win 2).blk t).view.emb (ix2 p q)
      = ix2 (⟨win4_2.index t (0 : Fin 2) * 10000 + p.val, hg⟩ : Fin 100000) q := by
    funext a; apply Fin.ext
    match a with
    | ⟨0, _⟩ => show win4_2.index t (0 : Fin 2) * 10000 + 1 * p.val = win4_2.index t (0 : Fin 2) * 10000 + p.val; omega
    | ⟨1, _⟩ => show win4_2.index t (1 : Fin 2) * 128 + 1 * q.val = q.val; omega
  show k4_pay1 (iblk4 V c 0 t) (iblk4 V c 1 t) (ix2 p q) = product4 V c (((cfg4.win 2).blk t).view.emb (ix2 p q))
  rw [hemb]
  refine block_entry4 _ _ _ _ p q _ (fun k => ?_) (fun k => ?_)
  · show V c main_v63 (((cfg4.win 0).blk t).view.emb (ix2 p k))
      = V c main_v63 (ix2 (⟨win4_2.index t (0 : Fin 2) * 10000 + p.val, hg⟩ : Fin 100000) k)
    refine congrArg (V c main_v63) ?_
    funext a; apply Fin.ext
    match a with
    | ⟨0, _⟩ => show win4_0.index t (0 : Fin 2) * 10000 + 1 * p.val = win4_2.index t (0 : Fin 2) * 10000 + p.val; omega
    | ⟨1, _⟩ => show win4_0.index t (1 : Fin 2) * 128 + 1 * k.val = k.val; omega
  · show V c main_arg7 (((cfg4.win 1).blk t).view.emb (ix2 k q)) = V c main_arg7 (ix2 k q)
    refine congrArg (V c main_arg7) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega

/-- An index of the output array is in point `t`'s block iff each coordinate is in the block's range on its axis. -/
theorem mem_block4 (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v64).slice (win4_2.rect t)).set ↔ _
  rw [View.set_slice_whole, Rect.mem_set_unit]
  exact Iff.rfl

/-- Every index of the output array is in some point's block: row r is in block r / 10000. -/
theorem rows_covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := block_index_onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The region's output array after the run is the host's product of its two input arrays. -/
theorem dense4 : (dat4 (F := Ideal) V c).arrAt 2 cfg4.N
    = (Host.dotGeneral (F := Ideal) (φ₁ := .f32) (φ₂ := .f32) (DotDims.plain 100000 128 128) none
        (V c main_v63 : FVec Ideal ⟨2, ![100000, 128]⟩ .f32) (V c main_arg7 : FVec Ideal ⟨2, ![128, 128]⟩ .f32) : FVec Ideal ⟨2, ![100000, 128]⟩ .f32) :=
  (dat4 (F := Ideal) V c).arrAt_eq_of_cover 2 (product4 V c) (fun t _ => written4_eq V c t) (rows_covered4)

/-! ## Region 0: [100000, 1] · [1, 128] -/

/-- A block's product at an entry is the whole product at the block row's place in the array. -/
theorem block_entry0 (A : FVec Ideal ⟨2, ![100000, 1]⟩ .f32) (B : FVec Ideal ⟨2, ![1, 128]⟩ .f32)
    (x0 : FVec Ideal S10000x1 .f32) (x1 : FVec Ideal S1x128 .f32) (p : Fin 10000) (q : Fin 128) (g : Fin 100000)
    (h0 : ∀ k : Fin 1, x0 (ix2 p k) = A (ix2 g k)) (h1 : ∀ k : Fin 1, x1 (ix2 k q) = B (ix2 k q)) :
    k0_pay1 x0 x1 (ix2 p q)
      = Host.dotGeneral (F := Ideal) (φ₁ := .f32) (φ₂ := .f32) (DotDims.plain 100000 1 128) none A B (ix2 g q) := by
  unfold k0_pay1
  rw [dot_thin_plain]
  exact Cert.Lib.RowTiledDot.block_entry_eq_host bitsLt_bf16_f32 A B x0 x1 p q g h0 h1

/-- The host's product of the region's two input arrays as the region finds them. -/
abbrev product0 : FVec Ideal ⟨2, ![100000, 128]⟩ .f32 :=
  Host.dotGeneral (F := Ideal) (φ₁ := .f32) (φ₂ := .f32) (DotDims.plain 100000 1 128) none
    (V c main_arg0 : FVec Ideal ⟨2, ![100000, 1]⟩ .f32) (V c main_arg3 : FVec Ideal ⟨2, ![1, 128]⟩ .f32)

/-- The block indices at every point: the left column's block moves with the output's down the rows, the right row
    stays whole, and the output's block index is at most 9. -/
theorem block_index0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block of rows is some point's. -/
theorem block_index_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product. -/
theorem written0_eq (t : Fin cfg0.N) :
    (dat0 (F := Ideal) V c).flushed 2 t = ((cfg0.win 2).blk t).view.read (Elt Ideal) (product0 V c) := by
  show (cfg0.win 2).cut (grid0.coords t) ((dat0 (F := Ideal) V c).after 2 t) = _
  rw [after0_2]
  unfold out0_2
  rw [View.canon_unit_zero zero_offsets]
  simp only [View.ld_unit_zero (S := S10000x1) zero_offsets, View.ld_unit_zero (S := S1x128) zero_offsets]
  obtain ⟨e0, e1, e2, e3, e4, e5⟩ := block_index0 t
  funext j
  obtain ⟨p, q, rfl⟩ : ∃ (p : Fin 10000) (q : Fin 128), j = ix2 p q := ⟨j 0, j 1, eq_ix2 j⟩
  have hg : win0_2.index t (0 : Fin 2) * 10000 + p.val < 100000 := by have := p.isLt; omega
  have hemb : ((cfg0.win 2).blk t).view.emb (ix2 p q)
      = ix2 (⟨win0_2.index t (0 : Fin 2) * 10000 + p.val, hg⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; omega
  show k0_pay1 (iblk0 V c 0 t) (iblk0 V c 1 t) (ix2 p q) = product0 V c (((cfg0.win 2).blk t).view.emb (ix2 p q))
  rw [hemb]
  refine block_entry0 _ _ _ _ p q _ (fun k => ?_) (fun k => ?_)
  · show V c main_arg0 (((cfg0.win 0).blk t).view.emb (ix2 p k))
      = V c main_arg0 (ix2 (⟨win0_2.index t (0 : Fin 2) * 10000 + p.val, hg⟩ : Fin 100000) k)
    refine congrArg (V c main_arg0) ?_
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 1 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 1 + 1 * k.val = k.val; omega
    | ⟨1, _⟩ => show win0_1.index t (1 : Fin 2) * 128 + 1 * q.val = q.val; omega

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Every index of the output array is in some point's block: row r is in block r / 10000. -/
theorem rows_covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_index_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The region's output array after the run is the host's product of its two input arrays. -/
theorem dense0 : (dat0 (F := Ideal) V c).arrAt 2 cfg0.N
    = (Host.dotGeneral (F := Ideal) (φ₁ := .f32) (φ₂ := .f32) (DotDims.plain 100000 1 128) none
        (V c main_arg0 : FVec Ideal ⟨2, ![100000, 1]⟩ .f32) (V c main_arg3 : FVec Ideal ⟨2, ![1, 128]⟩ .f32) : FVec Ideal ⟨2, ![100000, 128]⟩ .f32) :=
  (dat0 (F := Ideal) V c).arrAt_eq_of_cover 2 (product0 V c) (fun t _ => written0_eq V c t) (rows_covered0)

end Cert.KernelIdeal.Regions

end
-- ==== Proof.RegionBias.lean ====
/-
  The three bias-and-maximum steps of the network, each computed block of rows by block of rows, read as one
  whole-array function.

  A step takes a matrix X of 100000 rows and 128 columns and a one-row matrix R of 128 columns, and produces the matrix
  whose entry (r, j) is max (X (r, j) + R (0, j)) 0.  The rows of X are cut into ten blocks of 10000 consecutive rows.  At
  grid point i the computation holds block i of X (rows 10000 · i to 10000 · i + 9999, all columns) and the whole row R;
  it repeats R down the block's rows, adds, takes the maximum with zero, and writes the result back as block i of the
  output.

  An entry of the result depends on exactly one entry of X, the one in the same row and column, and on one entry of R,
  the one in the same column.  So entry (p, j) of the block computed at point i is entry (10000 · i + p, j) of the
  whole-array function above: the blocks' results are the restrictions of that one function to the blocks' rows.  The
  row at which entry p of block i sits in the array is always (block index) · (block height) + p; the block indices of
  the input and of the output agree at every grid point, and the one-row matrix's block index is 0 throughout (both
  decided once over the ten points).

  Every row r of the array lies in the block of the point whose block index is r / 10000, so the ten blocks cover the
  array, and the output array after the step is the whole-array function, written as the host writes it.
-/
import proofs.«175258_j44633300140823_1_alg».proof.Proof.Gen.KernelIdeal.Frame
import proofs.«175258_j44633300140823_1_alg».proof.Proof.LibRowTiledDot
import proofs.«175258_j44633300140823_1_alg».proof.Proof.LibDenseBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The zero offsets of a whole-buffer load or store, as a constant function. -/
theorem biasZeros : (![0, 0] : Fin 2 → Nat) = fun _ => 0 := funext fun a => by fin_cases a <;> rfl

/-! ## The first bias-and-maximum step -/

/-- The block computation at an entry: entry (p, q) of the result on a block is the maximum with zero of the block's
    entry (p, q) plus the row's entry q. -/
theorem biasPay1_entry (x0 : FVec Ideal S10000x128 .f32) (x1 : FVec Ideal S1x128 .f32) (p : Fin 10000) (q : Fin 128) :
    k1_pay1 x0 x1 (ix2 p q) = max (x0 (ix2 p q) + x1 (ix2 (0 : Fin 1) q)) (Ideal.ofBits .f32 0x00000000#32) := by
  unfold k1_pay1
  exact Cert.Lib.DenseBias.bias_relu_block_entry x0 x1 _ _ _ p q

/-- The index maps over the ten grid points: the input block and the output block have the same row-block index, at most
    9; every column-block index is 0; the one-row matrix's block index is 0 on both axes. -/
theorem biasIdx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Each of the ten row blocks of the output is some grid point's. -/
theorem biasOnto1 : ∀ (q0 : Fin 10), ∃ t : Fin cfg1.N, win1_2.index t = ![q0.val, 0] :=
  (by decide +kernel : ∀ (q0 : Fin 10), ∃ t : Fin grid1.N, win1_2.index t = ![q0.val, 0])

/-- What grid point t writes back is block t of the whole-array function: entry (p, q) of the block's result reads the
    input block's entry (p, q), which is the array's entry (10000 · (block index) + p, q), and the row's entry q. -/
theorem biasRelu1_flushed (hR : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) (t : Fin cfg1.N) :
    (dat1 (F := Ideal) V c).flushed 2 t = ((cfg1.win 2).blk t).view.read (Elt Ideal)
      (maximumf (addf (V c main_v45) (broadcastInDim ⟨2, ![100000, 128]⟩ (![0, 1] : Fin 2 → Fin 2) hR (V c main_v46)))
        (broadcastInDim ⟨2, ![100000, 128]⟩ (![] : Fin 0 → Fin 2) hz (constant (F := Ideal) ⟨0, ![]⟩ .f32 0x00000000#32)) : FVec Ideal ⟨2, ![100000, 128]⟩ .f32) := by
  show (cfg1.win 2).cut (grid1.coords t) ((dat1 V c).after 2 t) = _
  rw [after1_2]
  unfold out1_2
  rw [View.canon_unit_zero biasZeros]
  simp only [View.ld_unit_zero (S := S10000x128) biasZeros, View.ld_unit_zero (S := S1x128) biasZeros]
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = (maximumf (addf (V c main_v45) (broadcastInDim ⟨2, ![100000, 128]⟩ (![0, 1] : Fin 2 → Fin 2) hR (V c main_v46)))
        (broadcastInDim ⟨2, ![100000, 128]⟩ (![] : Fin 0 → Fin 2) hz (constant (F := Ideal) ⟨0, ![]⟩ .f32 0x00000000#32)) : FVec Ideal ⟨2, ![100000, 128]⟩ .f32)
      (((cfg1.win 2).blk t).view.emb (ix2 p q))
  obtain ⟨e0, e1, e2, e3, e4, e5⟩ := biasIdx1 t
  have hp : p.val < 10000 := p.isLt
  have hq : q.val < 128 := q.isLt
  have hg : win1_2.index t (0 : Fin 2) * 10000 + p.val < 100000 := by omega
  have hemb : ((cfg1.win 2).blk t).view.emb (ix2 p q)
      = ix2 (⟨win1_2.index t (0 : Fin 2) * 10000 + p.val, hg⟩ : Fin 100000) q := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 128 + 1 * q.val = q.val; omega
  rw [hemb]
  refine (biasPay1_entry (iblk1 V c 0 t) (iblk1 V c 1 t) p q).trans ?_
  refine Eq.trans ?_ (Cert.Lib.DenseBias.bias_relu_host_entry (V c main_v45) (V c main_v46) hR hz
    (⟨win1_2.index t (0 : Fin 2) * 10000 + p.val, hg⟩ : Fin 100000) q).symm
  have h0 : iblk1 V c 0 t (ix2 p q)
      = V c main_v45 (ix2 (⟨win1_2.index t (0 : Fin 2) * 10000 + p.val, hg⟩ : Fin 100000) q) := by
    show V c main_v45 (((cfg1.win 0).blk t).view.emb (ix2 p q)) = _
    refine congrArg (V c main_v45) ?_
    funext a; apply Fin.ext
    match a with
    | ⟨0, _⟩ => show win1_0.index t (0 : Fin 2) * 10000 + 1 * p.val = win1_2.index t (0 : Fin 2) * 10000 + p.val; omega
    | ⟨1, _⟩ => show win1_0.index t (1 : Fin 2) * 128 + 1 * q.val = q.val; omega
  have h1 : iblk1 V c 1 t (ix2 (0 : Fin 1) q) = V c main_v46 (ix2 (0 : Fin 1) q) := by
    show V c main_v46 (((cfg1.win 1).blk t).view.emb (ix2 (0 : Fin 1) q)) = _
    refine congrArg (V c main_v46) ?_
    funext a; apply Fin.ext
    match a with
    | ⟨0, _⟩ => show win1_1.index t (0 : Fin 2) * 1 + 1 * (0 : Fin 1).val = (0 : Fin 1).val; omega
    | ⟨1, _⟩ => show win1_1.index t (1 : Fin 2) * 128 + 1 * q.val = q.val; omega
  rw [h0, h1]

/-- An index of the output array is in grid point t's block iff each coordinate is in the block's range on its axis. -/
theorem biasRelu1_mem (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The ten blocks cover the output array: row r lies in the block of the grid point whose row-block index is
    r / 10000. -/
theorem biasRelu1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := biasOnto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [biasRelu1_mem]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the first bias-and-maximum step its output array is the maximum with zero of the input matrix plus the row
    repeated down all rows, as the host writes that function. -/
theorem biasRelu1 (hR : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) :
    (dat1 (F := Ideal) V c).arrAt 2 cfg1.N
    = (maximumf (addf (V c main_v45) (broadcastInDim ⟨2, ![100000, 128]⟩ (![0, 1] : Fin 2 → Fin 2) hR (V c main_v46)))
        (broadcastInDim ⟨2, ![100000, 128]⟩ (![] : Fin 0 → Fin 2) hz (constant (F := Ideal) ⟨0, ![]⟩ .f32 0x00000000#32)) : FVec Ideal ⟨2, ![100000, 128]⟩ .f32) :=
  (dat1 (F := Ideal) V c).arrAt_eq_of_cover 2 _ (fun t _ => biasRelu1_flushed V c hR hz t) biasRelu1_cover

/-! ## The second bias-and-maximum step -/

/-- The block computation at an entry: entry (p, q) of the result on a block is the maximum with zero of the block's
    entry (p, q) plus the row's entry q. -/
theorem biasPay3_entry (x0 : FVec Ideal S10000x128 .f32) (x1 : FVec Ideal S1x128 .f32) (p : Fin 10000) (q : Fin 128) :
    k3_pay1 x0 x1 (ix2 p q) = max (x0 (ix2 p q) + x1 (ix2 (0 : Fin 1) q)) (Ideal.ofBits .f32 0x00000000#32) := by
  unfold k3_pay1
  exact Cert.Lib.DenseBias.bias_relu_block_entry x0 x1 _ _ _ p q

/-- The index maps over the ten grid points: the input block and the output block have the same row-block index, at most
    9; every column-block index is 0; the one-row matrix's block index is 0 on both axes. -/
theorem biasIdx3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Each of the ten row blocks of the output is some grid point's. -/
theorem biasOnto3 : ∀ (q0 : Fin 10), ∃ t : Fin cfg3.N, win3_2.index t = ![q0.val, 0] :=
  (by decide +kernel : ∀ (q0 : Fin 10), ∃ t : Fin grid3.N, win3_2.index t = ![q0.val, 0])

/-- What grid point t writes back is block t of the whole-array function: entry (p, q) of the block's result reads the
    input block's entry (p, q), which is the array's entry (10000 · (block index) + p, q), and the row's entry q. -/
theorem biasRelu3_flushed (hR : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) (t : Fin cfg3.N) :
    (dat3 (F := Ideal) V c).flushed 2 t = ((cfg3.win 2).blk t).view.read (Elt Ideal)
      (maximumf (addf (V c main_v61) (broadcastInDim ⟨2, ![100000, 128]⟩ (![0, 1] : Fin 2 → Fin 2) hR (V c main_v62)))
        (broadcastInDim ⟨2, ![100000, 128]⟩ (![] : Fin 0 → Fin 2) hz (constant (F := Ideal) ⟨0, ![]⟩ .f32 0x00000000#32)) : FVec Ideal ⟨2, ![100000, 128]⟩ .f32) := by
  show (cfg3.win 2).cut (grid3.coords t) ((dat3 V c).after 2 t) = _
  rw [after3_2]
  unfold out3_2
  rw [View.canon_unit_zero biasZeros]
  simp only [View.ld_unit_zero (S := S10000x128) biasZeros, View.ld_unit_zero (S := S1x128) biasZeros]
  funext j
  obtain ⟨p, q, rfl⟩ : ∃ (p : Fin 10000) (q : Fin 128), j = ix2 p q := ⟨j 0, j 1, eq_ix2 j⟩
  show k3_pay1 (iblk3 V c 0 t) (iblk3 V c 1 t) (ix2 p q)
    = (maximumf (addf (V c main_v61) (broadcastInDim ⟨2, ![100000, 128]⟩ (![0, 1] : Fin 2 → Fin 2) hR (V c main_v62)))
        (broadcastInDim ⟨2, ![100000, 128]⟩ (![] : Fin 0 → Fin 2) hz (constant (F := Ideal) ⟨0, ![]⟩ .f32 0x00000000#32)) : FVec Ideal ⟨2, ![100000, 128]⟩ .f32)
      (((cfg3.win 2).blk t).view.emb (ix2 p q))
  obtain ⟨e0, e1, e2, e3, e4, e5⟩ := biasIdx3 t
  have hp : p.val < 10000 := p.isLt
  have hq : q.val < 128 := q.isLt
  have hg : win3_2.index t (0 : Fin 2) * 10000 + p.val < 100000 := by omega
  have hemb : ((cfg3.win 2).blk t).view.emb (ix2 p q)
      = ix2 (⟨win3_2.index t (0 : Fin 2) * 10000 + p.val, hg⟩ : Fin 100000) q := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 128 + 1 * q.val = q.val; omega
  rw [hemb]
  refine (biasPay3_entry (iblk3 V c 0 t) (iblk3 V c 1 t) p q).trans ?_
  refine Eq.trans ?_ (Cert.Lib.DenseBias.bias_relu_host_entry (V c main_v61) (V c main_v62) hR hz
    (⟨win3_2.index t (0 : Fin 2) * 10000 + p.val, hg⟩ : Fin 100000) q).symm
  have h0 : iblk3 V c 0 t (ix2 p q)
      = V c main_v61 (ix2 (⟨win3_2.index t (0 : Fin 2) * 10000 + p.val, hg⟩ : Fin 100000) q) := by
    show V c main_v61 (((cfg3.win 0).blk t).view.emb (ix2 p q)) = _
    refine congrArg (V c main_v61) ?_
    funext a; apply Fin.ext
    match a with
    | ⟨0, _⟩ => show win3_0.index t (0 : Fin 2) * 10000 + 1 * p.val = win3_2.index t (0 : Fin 2) * 10000 + p.val; omega
    | ⟨1, _⟩ => show win3_0.index t (1 : Fin 2) * 128 + 1 * q.val = q.val; omega
  have h1 : iblk3 V c 1 t (ix2 (0 : Fin 1) q) = V c main_v62 (ix2 (0 : Fin 1) q) := by
    show V c main_v62 (((cfg3.win 1).blk t).view.emb (ix2 (0 : Fin 1) q)) = _
    refine congrArg (V c main_v62) ?_
    funext a; apply Fin.ext
    match a with
    | ⟨0, _⟩ => show win3_1.index t (0 : Fin 2) * 1 + 1 * (0 : Fin 1).val = (0 : Fin 1).val; omega
    | ⟨1, _⟩ => show win3_1.index t (1 : Fin 2) * 128 + 1 * q.val = q.val; omega
  rw [h0, h1]

/-- An index of the output array is in grid point t's block iff each coordinate is in the block's range on its axis. -/
theorem biasRelu3_mem (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- The ten blocks cover the output array: row r lies in the block of the grid point whose row-block index is
    r / 10000. -/
theorem biasRelu3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := biasOnto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [biasRelu3_mem]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the second bias-and-maximum step its output array is the maximum with zero of the input matrix plus the row
    repeated down all rows, as the host writes that function. -/
theorem biasRelu3 (hR : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) :
    (dat3 (F := Ideal) V c).arrAt 2 cfg3.N
    = (maximumf (addf (V c main_v61) (broadcastInDim ⟨2, ![100000, 128]⟩ (![0, 1] : Fin 2 → Fin 2) hR (V c main_v62)))
        (broadcastInDim ⟨2, ![100000, 128]⟩ (![] : Fin 0 → Fin 2) hz (constant (F := Ideal) ⟨0, ![]⟩ .f32 0x00000000#32)) : FVec Ideal ⟨2, ![100000, 128]⟩ .f32) :=
  (dat3 (F := Ideal) V c).arrAt_eq_of_cover 2 _ (fun t _ => biasRelu3_flushed V c hR hz t) biasRelu3_cover

/-! ## The third bias-and-maximum step -/

/-- The block computation at an entry: entry (p, q) of the result on a block is the maximum with zero of the block's
    entry (p, q) plus the row's entry q. -/
theorem biasPay5_entry (x0 : FVec Ideal S10000x128 .f32) (x1 : FVec Ideal S1x128 .f32) (p : Fin 10000) (q : Fin 128) :
    k5_pay1 x0 x1 (ix2 p q) = max (x0 (ix2 p q) + x1 (ix2 (0 : Fin 1) q)) (Ideal.ofBits .f32 0x00000000#32) := by
  unfold k5_pay1
  exact Cert.Lib.DenseBias.bias_relu_block_entry x0 x1 _ _ _ p q

/-- The index maps over the ten grid points: the input block and the output block have the same row-block index, at most
    9; every column-block index is 0; the one-row matrix's block index is 0 on both axes. -/
theorem biasIdx5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Each of the ten row blocks of the output is some grid point's. -/
theorem biasOnto5 : ∀ (q0 : Fin 10), ∃ t : Fin cfg5.N, win5_2.index t = ![q0.val, 0] :=
  (by decide +kernel : ∀ (q0 : Fin 10), ∃ t : Fin grid5.N, win5_2.index t = ![q0.val, 0])

/-- What grid point t writes back is block t of the whole-array function: entry (p, q) of the block's result reads the
    input block's entry (p, q), which is the array's entry (10000 · (block index) + p, q), and the row's entry q. -/
theorem biasRelu5_flushed (hR : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) (t : Fin cfg5.N) :
    (dat5 (F := Ideal) V c).flushed 2 t = ((cfg5.win 2).blk t).view.read (Elt Ideal)
      (maximumf (addf (V c main_v77) (broadcastInDim ⟨2, ![100000, 128]⟩ (![0, 1] : Fin 2 → Fin 2) hR (V c main_v78)))
        (broadcastInDim ⟨2, ![100000, 128]⟩ (![] : Fin 0 → Fin 2) hz (constant (F := Ideal) ⟨0, ![]⟩ .f32 0x00000000#32)) : FVec Ideal ⟨2, ![100000, 128]⟩ .f32) := by
  show (cfg5.win 2).cut (grid5.coords t) ((dat5 V c).after 2 t) = _
  rw [after5_2]
  unfold out5_2
  rw [View.canon_unit_zero biasZeros]
  simp only [View.ld_unit_zero (S := S10000x128) biasZeros, View.ld_unit_zero (S := S1x128) biasZeros]
  funext j
  obtain ⟨p, q, rfl⟩ : ∃ (p : Fin 10000) (q : Fin 128), j = ix2 p q := ⟨j 0, j 1, eq_ix2 j⟩
  show k5_pay1 (iblk5 V c 0 t) (iblk5 V c 1 t) (ix2 p q)
    = (maximumf (addf (V c main_v77) (broadcastInDim ⟨2, ![100000, 128]⟩ (![0, 1] : Fin 2 → Fin 2) hR (V c main_v78)))
        (broadcastInDim ⟨2, ![100000, 128]⟩ (![] : Fin 0 → Fin 2) hz (constant (F := Ideal) ⟨0, ![]⟩ .f32 0x00000000#32)) : FVec Ideal ⟨2, ![100000, 128]⟩ .f32)
      (((cfg5.win 2).blk t).view.emb (ix2 p q))
  obtain ⟨e0, e1, e2, e3, e4, e5⟩ := biasIdx5 t
  have hp : p.val < 10000 := p.isLt
  have hq : q.val < 128 := q.isLt
  have hg : win5_2.index t (0 : Fin 2) * 10000 + p.val < 100000 := by omega
  have hemb : ((cfg5.win 2).blk t).view.emb (ix2 p q)
      = ix2 (⟨win5_2.index t (0 : Fin 2) * 10000 + p.val, hg⟩ : Fin 100000) q := by
    funext a; apply Fin.ext
    match a with
    | ⟨0, _⟩ => show win5_2.index t (0 : Fin 2) * 10000 + 1 * p.val = win5_2.index t (0 : Fin 2) * 10000 + p.val; omega
    | ⟨1, _⟩ => show win5_2.index t (1 : Fin 2) * 128 + 1 * q.val = q.val; omega
  rw [hemb]
  refine (biasPay5_entry (iblk5 V c 0 t) (iblk5 V c 1 t) p q).trans ?_
  refine Eq.trans ?_ (Cert.Lib.DenseBias.bias_relu_host_entry (V c main_v77) (V c main_v78) hR hz
    (⟨win5_2.index t (0 : Fin 2) * 10000 + p.val, hg⟩ : Fin 100000) q).symm
  have h0 : iblk5 V c 0 t (ix2 p q)
      = V c main_v77 (ix2 (⟨win5_2.index t (0 : Fin 2) * 10000 + p.val, hg⟩ : Fin 100000) q) := by
    show V c main_v77 (((cfg5.win 0).blk t).view.emb (ix2 p q)) = _
    refine congrArg (V c main_v77) ?_
    funext a; apply Fin.ext
    match a with
    | ⟨0, _⟩ => show win5_0.index t (0 : Fin 2) * 10000 + 1 * p.val = win5_2.index t (0 : Fin 2) * 10000 + p.val; omega
    | ⟨1, _⟩ => show win5_0.index t (1 : Fin 2) * 128 + 1 * q.val = q.val; omega
  have h1 : iblk5 V c 1 t (ix2 (0 : Fin 1) q) = V c main_v78 (ix2 (0 : Fin 1) q) := by
    show V c main_v78 (((cfg5.win 1).blk t).view.emb (ix2 (0 : Fin 1) q)) = _
    refine congrArg (V c main_v78) ?_
    funext a; apply Fin.ext
    match a with
    | ⟨0, _⟩ => show win5_1.index t (0 : Fin 2) * 1 + 1 * (0 : Fin 1).val = (0 : Fin 1).val; omega
    | ⟨1, _⟩ => show win5_1.index t (1 : Fin 2) * 128 + 1 * q.val = q.val; omega
  rw [h0, h1]

/-- An index of the output array is in grid point t's block iff each coordinate is in the block's range on its axis. -/
theorem biasRelu5_mem (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v79).slice (win5_2.rect t)).set ↔ _
  rw [View.set_slice_whole, Rect.mem_set_unit]
  exact Iff.rfl

/-- The ten blocks cover the output array: row r lies in the block of the grid point whose row-block index is
    r / 10000. -/
theorem biasRelu5_cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := biasOnto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [biasRelu5_mem]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- After the third bias-and-maximum step its output array is the maximum with zero of the input matrix plus the row
    repeated down all rows, as the host writes that function. -/
theorem biasRelu5 (hR : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2)) :
    (dat5 (F := Ideal) V c).arrAt 2 cfg5.N
    = (maximumf (addf (V c main_v77) (broadcastInDim ⟨2, ![100000, 128]⟩ (![0, 1] : Fin 2 → Fin 2) hR (V c main_v78)))
        (broadcastInDim ⟨2, ![100000, 128]⟩ (![] : Fin 0 → Fin 2) hz (constant (F := Ideal) ⟨0, ![]⟩ .f32 0x00000000#32)) : FVec Ideal ⟨2, ![100000, 128]⟩ .f32) :=
  (dat5 (F := Ideal) V c).arrAt_eq_of_cover 2 _ (fun t _ => biasRelu5_flushed V c hR hz t) biasRelu5_cover

end Cert.KernelIdeal.Regions

end
-- ==== Proof.RegionMlp.lean ====
/-
  The last region: a three-layer perceptron computed on one block.

  What a block is here.  The region's grid has ONE point, and at that point every window's block index is (0, 0) with a
  block as large as its array: a block IS its array, entry (p, q) of the block being entry (p, q) of the array.  So the
  body reads seven arrays whole (the rows g [2048, 128]; the weights W1, W2 [128, 128] and W3 [128, 1]; the bias rows
  b1, b2 [1, 128] and b3 [1, 1]) and its one store leaves in the output block [2048, 1]

      h1 = max (g · W1 + b1 repeated down the rows) 0,
      h2 = max (h1 · W2 + b2 repeated down the rows) 0,
      out = h2 · W3 + b3 repeated down the rows.

  Which entries an entry depends on.  Entry (p, q) of a product reads row p of its left factor and column q of its
  right factor; a bias row repeated down the rows contributes its entry (0, q); the maximum with zero is entrywise.
  So row p of each layer, and entry (p, 0) of the output, depends on row p of g alone, and on all of the weights and
  bias rows.

  Why the block's result is the restriction of one whole-array function.  On the extended reals the narrowing to bf16
  is the identity and a product into the zero accumulator is the exact sum over k of x (p, k) · W (k, q), which is the
  entry of the host's product of the whole matrices; the kernel's broadcast of a bias row and of the scalar zero are,
  entry by entry, the host's broadcast_in_dim of that row and of the rank-0 zero.  Hence each layer as the kernel
  spells it EQUALS, as an array, the layer as the reference spells it (dense_eq, row_down_eq, zero_eq); the payload is
  the reference's function mlpHost of the loaded blocks (pay_eq); the loaded blocks are the arrays as the region finds
  them (read_blk0 … read_blk7, iblk_eq0 … iblk_eq6); so what the one point writes back is the block, here all, of
  mlpHost of those arrays (flushed_eq).  The one block covers the output array (cover), and therefore the array after
  the region is mlpHost of the arrays, written as the reference writes it (mlp6).  The auxiliary statements live in the namespace Mlp.
-/
import proofs.«175258_j44633300140823_1_alg».proof.Proof.Gen.KernelIdeal.Frame
import proofs.«175258_j44633300140823_1_alg».proof.Proof.LibRowTiledDot
import proofs.«175258_j44633300140823_1_alg».proof.Proof.LibDenseBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

namespace Mlp

/-- The printed contraction records of the two hidden layers and of the last layer are the plain products
    [2048, 128] · [128, 128] and [2048, 128] · [128, 1]. -/
theorem dot_hidden_eq : dot_S2048x128_S128x128_S2048x128_1_0_0_1_n_n = DotDims.plain 2048 128 128 := rfl
theorem dot_last_eq : dot_S2048x128_S128x1_S2048x1_1_0_0_1_n_n = DotDims.plain 2048 128 1 := rfl

section Layers

variable {M K N : ℕ}

/-- A product of the whole matrices, as the kernel spells it (both factors narrowed to bf16, into the zero
    accumulator), is the host's product: entry (p, q) of either is the sum over k of x (p, k) · W (k, q). -/
theorem dense_eq (h : FTy.bits .bf16 < FTy.bits .f32) (x : FVec Ideal ⟨2, ![M, K]⟩ .f32) (W : FVec Ideal ⟨2, ![K, N]⟩ .f32) :
    matmul (DotDims.plain M K N) none (truncf .bf16 x h) (truncf .bf16 W h) (constant (F := Ideal) ⟨2, ![M, N]⟩ .f32 0x00000000#32)
      = Host.dotGeneral (F := Ideal) (φ₁ := .f32) (φ₂ := .f32) (DotDims.plain M K N) none x W := by
  funext j
  obtain ⟨p, q, rfl⟩ : ∃ (p : Fin M) (q : Fin N), j = ix2 p q := ⟨j 0, j 1, eq_ix2 j⟩
  exact Cert.Lib.RowTiledDot.block_entry_eq_host h x W x W p q p (fun _ => rfl) (fun _ => rfl)

/-- A bias row [1, N] repeated down M rows, as the kernel spells it (a reshape to itself, then a broadcast) and as
    the host spells it (broadcast_in_dim along both axes): entry (p, q) of either is the row's entry (0, q). -/
theorem row_down_eq (b : FVec Ideal ⟨2, ![1, N]⟩ .f32) (h1 : (⟨2, ![1, N]⟩ : Shape).ShapeCasts ⟨2, ![1, N]⟩)
    (hb : (⟨2, ![1, N]⟩ : Shape).Broadcasts ⟨2, ![M, N]⟩)
    (hR : (⟨2, ![1, N]⟩ : Shape).BroadcastsInDim ⟨2, ![M, N]⟩ (![0, 1] : Fin 2 → Fin 2)) :
    broadcastTo ⟨2, ![M, N]⟩ (shapeCast ⟨2, ![1, N]⟩ b h1) hb = broadcastInDim ⟨2, ![M, N]⟩ (![0, 1] : Fin 2 → Fin 2) hR b := by
  funext j
  obtain ⟨p, q, rfl⟩ : ∃ (p : Fin M) (q : Fin N), j = ix2 p q := ⟨j 0, j 1, eq_ix2 j⟩
  rw [Cert.Lib.DenseBias.row_down_entry, Cert.Lib.DenseBias.row_down_host_entry, shapeCast_self]

/-- The zero matrix, as the kernel spells it (a broadcast scalar) and as the host spells it (broadcast_in_dim of the
    rank-0 zero constant). -/
theorem zero_eq (hz : (⟨0, ![]⟩ : Shape).BroadcastsInDim ⟨2, ![M, N]⟩ (![] : Fin 0 → Fin 2)) :
    (broadcast ⟨2, ![M, N]⟩ (Scalar.ofBits (F := Ideal) .f32 0x00000000#32) : FVec Ideal ⟨2, ![M, N]⟩ .f32)
      = broadcastInDim ⟨2, ![M, N]⟩ (![] : Fin 0 → Fin 2) hz (constant (F := Ideal) ⟨0, ![]⟩ .f32 0x00000000#32) := by
  funext j
  rw [broadcast_apply]
  exact ((broadcastInDim_apply _ hz (constant (F := Ideal) ⟨0, ![]⟩ .f32 0x00000000#32) j ix0 fun ax => ax.elim0).trans rfl).symm

end Layers

/-- The reference's three layers as ONE function of the seven arrays: two hidden layers (product, bias row repeated
    down the rows, maximum with the zero matrix) and the last layer (product with the one column, bias). -/
def mlpHost (hR : (⟨2, ![1, 128]⟩ : Shape).BroadcastsInDim ⟨2, ![2048, 128]⟩ (![0, 1] : Fin 2 → Fin 2))
    (hz : (⟨0, ![]⟩ : Shape).BroadcastsInDim ⟨2, ![2048, 128]⟩ (![] : Fin 0 → Fin 2))
    (hR1 : (⟨2, ![1, 1]⟩ : Shape).BroadcastsInDim ⟨2, ![2048, 1]⟩ (![0, 1] : Fin 2 → Fin 2))
    (g : FVec Ideal ⟨2, ![2048, 128]⟩ .f32) (W1 : FVec Ideal ⟨2, ![128, 128]⟩ .f32) (b1 : FVec Ideal ⟨2, ![1, 128]⟩ .f32)
    (W2 : FVec Ideal ⟨2, ![128, 128]⟩ .f32) (b2 : FVec Ideal ⟨2, ![1, 128]⟩ .f32) (W3 : FVec Ideal ⟨2, ![128, 1]⟩ .f32)
    (b3 : FVec Ideal ⟨2, ![1, 1]⟩ .f32) : FVec Ideal ⟨2, ![2048, 1]⟩ .f32 :=
  addf (Host.dotGeneral (F := Ideal) (φ₁ := .f32) (φ₂ := .f32) (DotDims.plain 2048 128 1) none
        (maximumf (addf (Host.dotGeneral (F := Ideal) (φ₁ := .f32) (φ₂ := .f32) (DotDims.plain 2048 128 128) none
          (maximumf (addf (Host.dotGeneral (F := Ideal) (φ₁ := .f32) (φ₂ := .f32) (DotDims.plain 2048 128 128) none g W1)
              (broadcastInDim ⟨2, ![2048, 128]⟩ (![0, 1] : Fin 2 → Fin 2) hR b1))
            (broadcastInDim ⟨2, ![2048, 128]⟩ (![] : Fin 0 → Fin 2) hz (constant (F := Ideal) ⟨0, ![]⟩ .f32 0x00000000#32)))
          W2)
            (broadcastInDim ⟨2, ![2048, 128]⟩ (![0, 1] : Fin 2 → Fin 2) hR b2))
          (broadcastInDim ⟨2, ![2048, 128]⟩ (![] : Fin 0 → Fin 2) hz (constant (F := Ideal) ⟨0, ![]⟩ .f32 0x00000000#32)))
        W3)
      (broadcastInDim ⟨2, ![2048, 1]⟩ (![0, 1] : Fin 2 → Fin 2) hR1 b3)

/-- The kernel's payload of its seven loaded arrays is that function of them: layer by layer, the kernel's spelling of
    a product, of a repeated bias row and of the zero matrix is the host's. -/
theorem pay_eq (hR : (⟨2, ![1, 128]⟩ : Shape).BroadcastsInDim ⟨2, ![2048, 128]⟩ (![0, 1] : Fin 2 → Fin 2))
    (hz : (⟨0, ![]⟩ : Shape).BroadcastsInDim ⟨2, ![2048, 128]⟩ (![] : Fin 0 → Fin 2))
    (hR1 : (⟨2, ![1, 1]⟩ : Shape).BroadcastsInDim ⟨2, ![2048, 1]⟩ (![0, 1] : Fin 2 → Fin 2))
    (g : FVec Ideal ⟨2, ![2048, 128]⟩ .f32) (W1 : FVec Ideal ⟨2, ![128, 128]⟩ .f32) (b1 : FVec Ideal ⟨2, ![1, 128]⟩ .f32)
    (W2 : FVec Ideal ⟨2, ![128, 128]⟩ .f32) (b2 : FVec Ideal ⟨2, ![1, 128]⟩ .f32) (W3 : FVec Ideal ⟨2, ![128, 1]⟩ .f32)
    (b3 : FVec Ideal ⟨2, ![1, 1]⟩ .f32) :
    k6_pay1 (F := Ideal) g W1 b1 W2 b2 W3 b3 = mlpHost hR hz hR1 g W1 b1 W2 b2 W3 b3 := by
  unfold k6_pay1 mlpHost
  dsimp only
  rw [dot_hidden_eq, dot_last_eq]
  rw [shapeCast_self g, dense_eq, row_down_eq b1 _ _ hR, zero_eq hz, dense_eq, row_down_eq b2 _ _ hR, dense_eq,
    row_down_eq b3 _ _ hR1]

/-! ## The one point's blocks are the whole arrays -/

theorem hz2 : (![0, 0] : Fin 2 → Nat) = fun _ => 0 := funext fun a => by fin_cases a <;> rfl

/-- The printed index maps, decided over the grid: every window's block index at the one point is (0, 0). -/
theorem idx_facts : ∀ t : Fin cfg6.N,
    (win6_0.index t (0 : Fin 2) = 0 ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0) :=
  (by decide +kernel : ∀ t : Fin grid6.N, _)

/-- Window 0's block at the one point is its whole array [2048, 128]: the block index is (0, 0), so an entry of the
    block sits at the same coordinates in the array. -/
theorem read_blk0 (t : Fin cfg6.N) (X : FVec Ideal ⟨2, ![2048, 128]⟩ .f32) :
    ((cfg6.win 0).blk t).view.read (Elt Ideal) X = X := by
  funext y
  show X (((cfg6.win 0).blk t).view.emb y) = X y
  refine congrArg X (funext fun a => Fin.ext ?_)
  obtain ⟨e0, -⟩ := idx_facts t
  match a with
  | ⟨0, _⟩ => show win6_0.index t (0 : Fin 2) * 2048 + 1 * (y 0).val = (y 0).val; rw [e0.1]; omega
  | ⟨1, _⟩ => show win6_0.index t (1 : Fin 2) * 128 + 1 * (y 1).val = (y 1).val; rw [e0.2]; omega

/-- Window 1's block at the one point is its whole array [128, 128]: the block index is (0, 0), so an entry of the
    block sits at the same coordinates in the array. -/
theorem read_blk1 (t : Fin cfg6.N) (X : FVec Ideal ⟨2, ![128, 128]⟩ .f32) :
    ((cfg6.win 1).blk t).view.read (Elt Ideal) X = X := by
  funext y
  show X (((cfg6.win 1).blk t).view.emb y) = X y
  refine congrArg X (funext fun a => Fin.ext ?_)
  obtain ⟨-, e0, -⟩ := idx_facts t
  match a with
  | ⟨0, _⟩ => show win6_1.index t (0 : Fin 2) * 128 + 1 * (y 0).val = (y 0).val; rw [e0.1]; omega
  | ⟨1, _⟩ => show win6_1.index t (1 : Fin 2) * 128 + 1 * (y 1).val = (y 1).val; rw [e0.2]; omega

/-- Window 2's block at the one point is its whole array [1, 128]: the block index is (0, 0), so an entry of the
    block sits at the same coordinates in the array. -/
theorem read_blk2 (t : Fin cfg6.N) (X : FVec Ideal ⟨2, ![1, 128]⟩ .f32) :
    ((cfg6.win 2).blk t).view.read (Elt Ideal) X = X := by
  funext y
  show X (((cfg6.win 2).blk t).view.emb y) = X y
  refine congrArg X (funext fun a => Fin.ext ?_)
  obtain ⟨-, -, e0, -⟩ := idx_facts t
  match a with
  | ⟨0, _⟩ => show win6_2.index t (0 : Fin 2) * 1 + 1 * (y 0).val = (y 0).val; rw [e0.1]; omega
  | ⟨1, _⟩ => show win6_2.index t (1 : Fin 2) * 128 + 1 * (y 1).val = (y 1).val; rw [e0.2]; omega

/-- Window 3's block at the one point is its whole array [128, 128]: the block index is (0, 0), so an entry of the
    block sits at the same coordinates in the array. -/
theorem read_blk3 (t : Fin cfg6.N) (X : FVec Ideal ⟨2, ![128, 128]⟩ .f32) :
    ((cfg6.win 3).blk t).view.read (Elt Ideal) X = X := by
  funext y
  show X (((cfg6.win 3).blk t).view.emb y) = X y
  refine congrArg X (funext fun a => Fin.ext ?_)
  obtain ⟨-, -, -, e0, -⟩ := idx_facts t
  match a with
  | ⟨0, _⟩ => show win6_3.index t (0 : Fin 2) * 128 + 1 * (y 0).val = (y 0).val; rw [e0.1]; omega
  | ⟨1, _⟩ => show win6_3.index t (1 : Fin 2) * 128 + 1 * (y 1).val = (y 1).val; rw [e0.2]; omega

/-- Window 4's block at the one point is its whole array [1, 128]: the block index is (0, 0), so an entry of the
    block sits at the same coordinates in the array. -/
theorem read_blk4 (t : Fin cfg6.N) (X : FVec Ideal ⟨2, ![1, 128]⟩ .f32) :
    ((cfg6.win 4).blk t).view.read (Elt Ideal) X = X := by
  funext y
  show X (((cfg6.win 4).blk t).view.emb y) = X y
  refine congrArg X (funext fun a => Fin.ext ?_)
  obtain ⟨-, -, -, -, e0, -⟩ := idx_facts t
  match a with
  | ⟨0, _⟩ => show win6_4.index t (0 : Fin 2) * 1 + 1 * (y 0).val = (y 0).val; rw [e0.1]; omega
  | ⟨1, _⟩ => show win6_4.index t (1 : Fin 2) * 128 + 1 * (y 1).val = (y 1).val; rw [e0.2]; omega

/-- Window 5's block at the one point is its whole array [128, 1]: the block index is (0, 0), so an entry of the
    block sits at the same coordinates in the array. -/
theorem read_blk5 (t : Fin cfg6.N) (X : FVec Ideal ⟨2, ![128, 1]⟩ .f32) :
    ((cfg6.win 5).blk t).view.read (Elt Ideal) X = X := by
  funext y
  show X (((cfg6.win 5).blk t).view.emb y) = X y
  refine congrArg X (funext fun a => Fin.ext ?_)
  obtain ⟨-, -, -, -, -, e0, -⟩ := idx_facts t
  match a with
  | ⟨0, _⟩ => show win6_5.index t (0 : Fin 2) * 128 + 1 * (y 0).val = (y 0).val; rw [e0.1]; omega
  | ⟨1, _⟩ => show win6_5.index t (1 : Fin 2) * 1 + 1 * (y 1).val = (y 1).val; rw [e0.2]; omega

/-- Window 6's block at the one point is its whole array [1, 1]: the block index is (0, 0), so an entry of the
    block sits at the same coordinates in the array. -/
theorem read_blk6 (t : Fin cfg6.N) (X : FVec Ideal ⟨2, ![1, 1]⟩ .f32) :
    ((cfg6.win 6).blk t).view.read (Elt Ideal) X = X := by
  funext y
  show X (((cfg6.win 6).blk t).view.emb y) = X y
  refine congrArg X (funext fun a => Fin.ext ?_)
  obtain ⟨-, -, -, -, -, -, e0, -⟩ := idx_facts t
  match a with
  | ⟨0, _⟩ => show win6_6.index t (0 : Fin 2) * 1 + 1 * (y 0).val = (y 0).val; rw [e0.1]; omega
  | ⟨1, _⟩ => show win6_6.index t (1 : Fin 2) * 1 + 1 * (y 1).val = (y 1).val; rw [e0.2]; omega

/-- Window 7's block at the one point is its whole array [2048, 1]: the block index is (0, 0), so an entry of the
    block sits at the same coordinates in the array. -/
theorem read_blk7 (t : Fin cfg6.N) (X : FVec Ideal ⟨2, ![2048, 1]⟩ .f32) :
    ((cfg6.win 7).blk t).view.read (Elt Ideal) X = X := by
  funext y
  show X (((cfg6.win 7).blk t).view.emb y) = X y
  refine congrArg X (funext fun a => Fin.ext ?_)
  obtain ⟨-, -, -, -, -, -, -, e0⟩ := idx_facts t
  match a with
  | ⟨0, _⟩ => show win6_7.index t (0 : Fin 2) * 2048 + 1 * (y 0).val = (y 0).val; rw [e0.1]; omega
  | ⟨1, _⟩ => show win6_7.index t (1 : Fin 2) * 1 + 1 * (y 1).val = (y 1).val; rw [e0.2]; omega

/-- Input window 0's block at the one point is its array as the region finds it. -/
theorem iblk_eq0 (t : Fin cfg6.N) : iblk6 V c 0 t = (V c main_v91 : FVec Ideal ⟨2, ![2048, 128]⟩ .f32) :=
  read_blk0 t (V c main_v91)

/-- Input window 1's block at the one point is its array as the region finds it. -/
theorem iblk_eq1 (t : Fin cfg6.N) : iblk6 V c 1 t = (V c main_arg9 : FVec Ideal ⟨2, ![128, 128]⟩ .f32) :=
  read_blk1 t (V c main_arg9)

/-- Input window 2's block at the one point is its array as the region finds it. -/
theorem iblk_eq2 (t : Fin cfg6.N) : iblk6 V c 2 t = (V c main_v92 : FVec Ideal ⟨2, ![1, 128]⟩ .f32) :=
  read_blk2 t (V c main_v92)

/-- Input window 3's block at the one point is its array as the region finds it. -/
theorem iblk_eq3 (t : Fin cfg6.N) : iblk6 V c 3 t = (V c main_arg11 : FVec Ideal ⟨2, ![128, 128]⟩ .f32) :=
  read_blk3 t (V c main_arg11)

/-- Input window 4's block at the one point is its array as the region finds it. -/
theorem iblk_eq4 (t : Fin cfg6.N) : iblk6 V c 4 t = (V c main_v93 : FVec Ideal ⟨2, ![1, 128]⟩ .f32) :=
  read_blk4 t (V c main_v93)

/-- Input window 5's block at the one point is its array as the region finds it. -/
theorem iblk_eq5 (t : Fin cfg6.N) : iblk6 V c 5 t = (V c main_arg13 : FVec Ideal ⟨2, ![128, 1]⟩ .f32) :=
  read_blk5 t (V c main_arg13)

/-- Input window 6's block at the one point is its array as the region finds it. -/
theorem iblk_eq6 (t : Fin cfg6.N) : iblk6 V c 6 t = (V c main_v94 : FVec Ideal ⟨2, ![1, 1]⟩ .f32) :=
  read_blk6 t (V c main_v94)

/-! ## What the one point writes back, and the array after the region -/

/-- What the point writes back is the block (here: all) of the reference's function of the arrays as the region finds
    them: the body's one store leaves its payload, the payload is that function of the loaded blocks, and each loaded
    block is its whole array. -/
theorem flushed_eq (hR : (⟨2, ![1, 128]⟩ : Shape).BroadcastsInDim ⟨2, ![2048, 128]⟩ (![0, 1] : Fin 2 → Fin 2))
    (hz : (⟨0, ![]⟩ : Shape).BroadcastsInDim ⟨2, ![2048, 128]⟩ (![] : Fin 0 → Fin 2))
    (hR1 : (⟨2, ![1, 1]⟩ : Shape).BroadcastsInDim ⟨2, ![2048, 1]⟩ (![0, 1] : Fin 2 → Fin 2)) (t : Fin cfg6.N) :
    (dat6 (F := Ideal) V c).flushed 7 t = ((cfg6.win 7).blk t).view.read (Elt Ideal)
      (mlpHost hR hz hR1 (V c main_v91) (V c main_arg9) (V c main_v92) (V c main_arg11) (V c main_v93) (V c main_arg13)
        (V c main_v94)) := by
  show (cfg6.win 7).cut (grid6.coords t) ((dat6 V c).after 7 t) = _
  rw [after6_7]
  unfold out6_7
  rw [View.canon_unit_zero hz2]
  simp only [View.ld_unit_zero (S := S2048x128) hz2, View.ld_unit_zero (S := S128x128) hz2,
    View.ld_unit_zero (S := S1x128) hz2, View.ld_unit_zero (S := S128x1) hz2, View.ld_unit_zero (S := S1x1) hz2]
  rw [read_blk7]
  show k6_pay1 (F := Ideal) (iblk6 V c 0 t) (iblk6 V c 1 t) (iblk6 V c 2 t) (iblk6 V c 3 t) (iblk6 V c 4 t)
    (iblk6 V c 5 t) (iblk6 V c 6 t) = _
  refine (pay_eq hR hz hR1 (iblk6 V c 0 t) (iblk6 V c 1 t) (iblk6 V c 2 t) (iblk6 V c 3 t) (iblk6 V c 4 t)
    (iblk6 V c 5 t) (iblk6 V c 6 t)).trans ?_
  exact congr (congr (congr (congr (congr (congr (congrArg (mlpHost hR hz hR1) (iblk_eq0 V c t)) (iblk_eq1 V c t))
    (iblk_eq2 V c t)) (iblk_eq3 V c t)) (iblk_eq4 V c t)) (iblk_eq5 V c t)) (iblk_eq6 V c t)

/-- An index of the output array is in the point's block iff each coordinate is in the block's range on its axis. -/
theorem mem_blk (t : Fin cfg6.N) (i : S2048x1.Idx) :
    i ∈ ((cfg6.win 7).blk t).view.set ↔ ∀ a : Fin 2, win6_7.index t a * S2048x1.size a ≤ (i a).val
      ∧ (i a).val < win6_7.index t a * S2048x1.size a + S2048x1.size a := by
  show i ∈ ((View.whole main_v95).slice (win6_7.rect t)).set ↔ _
  rw [View.set_slice_whole, Rect.mem_set_unit]
  exact Iff.rfl

/-- Every index of the output array lies in the one point's block: the block starts at (0, 0) and is as large as the
    array. -/
theorem cover (i : S2048x1.Idx) :
    ∃ t : Fin cfg6.N, (cfg6.win 7).flush t = true ∧ i ∈ ((cfg6.win 7).blk t).view.set := by
  refine ⟨t6_0, flush6_7 t6_0, ?_⟩
  rw [mem_blk]
  obtain ⟨-, -, -, -, -, -, -, e0, e1⟩ := idx_facts t6_0
  have hi0 : (i 0).val < 2048 := (i 0).isLt
  have hi1 : (i 1).val < 1 := (i 1).isLt
  intro a
  match a with
  | ⟨0, _⟩ =>
    show win6_7.index t6_0 (0 : Fin 2) * 2048 ≤ (i 0).val ∧ (i 0).val < win6_7.index t6_0 (0 : Fin 2) * 2048 + 2048
    rw [e0]; omega
  | ⟨1, _⟩ =>
    show win6_7.index t6_0 (1 : Fin 2) * 1 ≤ (i 1).val ∧ (i 1).val < win6_7.index t6_0 (1 : Fin 2) * 1 + 1
    rw [e1]; omega

end Mlp

/-- THE ARRAY after the region: the reference's three layers of the arrays as the region finds them. -/
theorem mlp6 (hR : (⟨2, ![1, 128]⟩ : Shape).BroadcastsInDim ⟨2, ![2048, 128]⟩ (![0, 1] : Fin 2 → Fin 2))
    (hz : (⟨0, ![]⟩ : Shape).BroadcastsInDim ⟨2, ![2048, 128]⟩ (![] : Fin 0 → Fin 2))
    (hR1 : (⟨2, ![1, 1]⟩ : Shape).BroadcastsInDim ⟨2, ![2048, 1]⟩ (![0, 1] : Fin 2 → Fin 2)) :
    (dat6 (F := Ideal) V c).arrAt 7 cfg6.N
    = (addf (Host.dotGeneral (F := Ideal) (φ₁ := .f32) (φ₂ := .f32) (DotDims.plain 2048 128 1) none
        (maximumf (addf (Host.dotGeneral (F := Ideal) (φ₁ := .f32) (φ₂ := .f32) (DotDims.plain 2048 128 128) none
          (maximumf (addf (Host.dotGeneral (F := Ideal) (φ₁ := .f32) (φ₂ := .f32) (DotDims.plain 2048 128 128) none (V c main_v91 : FVec Ideal ⟨2, ![2048, 128]⟩ .f32) (V c main_arg9 : FVec Ideal ⟨2, ![128, 128]⟩ .f32))
              (broadcastInDim ⟨2, ![2048, 128]⟩ (![0, 1] : Fin 2 → Fin 2) hR (V c main_v92)))
            (broadcastInDim ⟨2, ![2048, 128]⟩ (![] : Fin 0 → Fin 2) hz (constant (F := Ideal) ⟨0, ![]⟩ .f32 0x00000000#32)))
          (V c main_arg11 : FVec Ideal ⟨2, ![128, 128]⟩ .f32))
            (broadcastInDim ⟨2, ![2048, 128]⟩ (![0, 1] : Fin 2 → Fin 2) hR (V c main_v93)))
          (broadcastInDim ⟨2, ![2048, 128]⟩ (![] : Fin 0 → Fin 2) hz (constant (F := Ideal) ⟨0, ![]⟩ .f32 0x00000000#32)))
        (V c main_arg13 : FVec Ideal ⟨2, ![128, 1]⟩ .f32))
      (broadcastInDim ⟨2, ![2048, 1]⟩ (![0, 1] : Fin 2 → Fin 2) hR1 (V c main_v94)) : FVec Ideal ⟨2, ![2048, 1]⟩ .f32) :=
  (dat6 (F := Ideal) V c).arrAt_eq_of_cover 7
    (Mlp.mlpHost hR hz hR1 (V c main_v91) (V c main_arg9) (V c main_v92) (V c main_arg11) (V c main_v93) (V c main_arg13)
      (V c main_v94))
    (fun t _ => Mlp.flushed_eq V c hR hz hR1 t) (fun i => Mlp.cover i)

end Cert.KernelIdeal.Regions

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.Stages.lean ====
/-
  The reference's result as a composition of named stages.

  The reference program is a three-layer graph convolution followed by a mean pooling over graphs and a three-layer
  perceptron. Written as one term of its fifteen arguments it is long only because the same pieces recur: the two edge
  lists with a self-loop appended for every node (source and destination ends), the negative-index wrap every gather
  applies to an index list, the in-degree of every node and its inverse square root (zero where the degree is zero), the
  edge weight dinv[src] · dinv[dst], and, once per layer, the aggregation "gather the projected rows at the sources,
  scale each by its edge weight, add them up at the destinations", the bias followed by the maximum with zero, and the
  dense projection. Each piece is named here once, as a function of whole arrays; the reference's result is their
  composition (final). Nothing is computed: the definitions only name subterms.
-/
import proofs.«175258_j44633300140823_1_alg».proof.Proof.Gen.ReferenceIdeal
import Idealize.ShloMosaic.Lib.StableHlo.Run

noncomputable section

namespace Cert.Stages

open Cert.ReferenceIdeal Cert.ReferenceIdeal.Gen Idealize.ShloMosaic

variable {F : FTy → Type} [FloatOps F]

/-- A whole array of a buffer type, at the float values F. -/
abbrev Arr (F : FTy → Type) (S : Shape) (e : EltTy) : Type := (⟨S, e⟩ : BufTy).Contents (Elt F)

/-- The source end of every edge, then every node once (its self-loop). -/
def src (ei : Arr F S2x1600000 .i32) : Arr F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destination end of every edge, then every node once. -/
def dst (ei : Arr F S2x1600000 .i32) : Arr F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- An index list with its negative entries moved up by the number of nodes (the wrap a gather applies). -/
def wrap (x : Arr F S1700000 .i32) : Arr F S1700000 .i32 :=
  select (cmpi .slt x (broadcastInDim S1700000 ![] bcast_S_S1700000 (constantI S_ 32 0#32))) (addi x (broadcastInDim S1700000 ![] bcast_S_S1700000 (constantI S_ 32 100000#32))) x

/-- The number of edges (self-loops included) arriving at each node, as a float. -/
def deg (d : Arr F S1700000 .i32) : Arr F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse square root of the degree, zero where the degree is zero. -/
def dinv (d : Arr F S1700000 .i32) : Arr F S100000 .f32 :=
  select (cmpf (F := F) .ogt (deg d) (broadcastInDim S100000 ![] bcast_S_S100000 (constant S_ .f32 0x00000000#32))) (Host.rsqrt (maximumf (deg d) (broadcastInDim S100000 ![] bcast_S_S100000 (constant S_ .f32 0x2B8CBCCC#32)))) (broadcastInDim S100000 ![] bcast_S_S100000 (id (constant S_ .f32 0x00000000#32)))

/-- The weight of every edge: dinv at its source times dinv at its destination. -/
def norm (ei : Arr F S2x1600000 .i32) : Arr F S1700000 .f32 :=
  mulf (Host.gather gather_S100000_S1700000x1_S1700000_n_0_n_n_0_1_1 (dinv (dst ei)) (broadcastInDim S1700000x1 ![0] bcast_S1700000_S1700000x1_0 (wrap (src ei)))) (Host.gather gather_S100000_S1700000x1_S1700000_n_0_n_n_0_1_1 (dinv (dst ei)) (broadcastInDim S1700000x1 ![0] bcast_S1700000_S1700000x1_0 (wrap (dst ei))))

/-- One layer's aggregation: the projected rows gathered at the sources, scaled by the edge weights, summed at the
    destinations. -/
def agg (ei : Arr F S2x1600000 .i32) (hw : Arr F S100000x128 .f32) : Arr F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dst ei)) (mulf (Host.gather gather_S100000x128_S1700000x1_S1700000x128_1_0_n_n_0_1_1128 hw (broadcastInDim S1700000x1 ![0] bcast_S1700000_S1700000x1_0 (wrap (src ei)))) (broadcastInDim S1700000x128 ![0, 1] bcast_S1700000x1_S1700000x128_0_1 (broadcastInDim S1700000x1 ![0] bcast_S1700000_S1700000x1_0 (norm ei))))

/-- A bias vector added to every row, then the maximum with zero. -/
def biasRelu (x : Arr F S100000x128 .f32) (b : Arr F S128 .f32) : Arr F S100000x128 .f32 :=
  maximumf (addf x (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The first layer's projection of the one-column feature matrix. -/
def dense1 (x : Arr F S100000x1 .f32) (w : Arr F S1x128 .f32) : Arr F S100000x128 .f32 :=
  Host.dotGeneral dot_S100000x1_S1x128_S100000x128_1_0_0_1_n_n none x w

/-- A later layer's projection. -/
def dense (x : Arr F S100000x128 .f32) (w : Arr F S128x128 .f32) : Arr F S100000x128 .f32 :=
  Host.dotGeneral dot_S100000x128_S128x128_S100000x128_1_0_0_1_n_n none x w

/-- The mean of the node rows of each graph: their sum divided by the larger of the graph's node count and one. -/
def pool (h : Arr F S100000x128 .f32) (batch : Arr F S100000 .i32) : Arr F S2048x128 .f32 :=
  Host.divf (Host.scatterAdd scatter_S2048x128_S100000x1_S100000x128_1_0_0_1 (broadcastInDim S2048x128 ![] bcast_S_S2048x128 (constant S_ .f32 0x00000000#32)) (broadcastInDim S100000x1 ![0] bcast_S100000_S100000x1_0 batch) h) (broadcastInDim S2048x128 ![0, 1] bcast_S2048x1_S2048x128_0_1 (broadcastInDim S2048x1 ![0] bcast_S2048_S2048x1_0 (maximumf (Host.scatterAdd scatter_S2048_S100000x1_S100000_n_0_0_1 (broadcastInDim S2048 ![] bcast_S_S2048 (constant S_ .f32 0x00000000#32)) (broadcastInDim S100000x1 ![0] bcast_S100000_S100000x1_0 batch) (broadcastInDim S100000 ![] bcast_S_S100000 (constant S_ .f32 0x3F800000#32))) (broadcastInDim S2048 ![] bcast_S_S2048 (constant S_ .f32 0x3F800000#32)))))

/-- The three-layer perceptron over the pooled rows, the one output column laid out as a vector. -/
def head (g : Arr F S2048x128 .f32) (w1 : Arr F S128x128 .f32) (b1 : Arr F S128 .f32) (w2 : Arr F S128x128 .f32)
    (b2 : Arr F S128 .f32) (w3 : Arr F S128x1 .f32) (b3 : Arr F S1 .f32) : Arr F S2048 .f32 :=
  shapeCast _ (addf (Host.dotGeneral dot_S2048x128_S128x1_S2048x1_1_0_0_1_n_n none (maximumf (addf (Host.dotGeneral dot_S2048x128_S128x128_S2048x128_1_0_0_1_n_n none (maximumf (addf (Host.dotGeneral dot_S2048x128_S128x128_S2048x128_1_0_0_1_n_n none g w1) (broadcastInDim S2048x128 ![0, 1] bcast_S1x128_S2048x128_0_1 (broadcastInDim S1x128 ![1] bcast_S128_S1x128_1 b1))) (broadcastInDim S2048x128 ![] bcast_S_S2048x128 (constant S_ .f32 0x00000000#32))) w2) (broadcastInDim S2048x128 ![0, 1] bcast_S1x128_S2048x128_0_1 (broadcastInDim S1x128 ![1] bcast_S128_S1x128_1 b2))) (broadcastInDim S2048x128 ![] bcast_S_S2048x128 (constant S_ .f32 0x00000000#32))) w3) (broadcastInDim S2048x1 ![0, 1] bcast_S1x1_S2048x1_0_1 (broadcastInDim S1x1 ![1] bcast_S1_S1x1_1 b3))) shapeCasts_S2048x1_S2048

/-- The reference's result of its fifteen arguments. -/
def final (a0 : Arr F S100000x1 .f32) (a1 : Arr F S2x1600000 .i32) (a2 : Arr F S100000 .i32) (a3 : Arr F S1x128 .f32)
    (a4 : Arr F S128 .f32) (a5 : Arr F S128x128 .f32) (a6 : Arr F S128 .f32) (a7 : Arr F S128x128 .f32) (a8 : Arr F S128 .f32)
    (a9 : Arr F S128x128 .f32) (a10 : Arr F S128 .f32) (a11 : Arr F S128x128 .f32) (a12 : Arr F S128 .f32)
    (a13 : Arr F S128x1 .f32) (a14 : Arr F S1 .f32) : Arr F S2048 .f32 :=
  head (pool (biasRelu (agg a1 (dense (biasRelu (agg a1 (dense (biasRelu (agg a1 (dense1 a0 a3)) a4) a5)) a6) a7)) a8) a2) a9 a10 a11 a12 a13 a14

end Cert.Stages

end
-- ==== Proof.Walk.lean ====
/-
  The idealized kernel's result, read through its fifteen segments.

  Between two segments the device's buffers hold a known valuation. A stretch of host operations rewrites the buffers
  its operations write, each to its operation's function of the buffers it reads, and leaves every other buffer alone;
  a kernel call replaces its output array by one whole-array function of its input arrays (a projection: the host's
  matrix product; a bias step: the row added to every row and the maximum with zero; the perceptron: three such layers)
  and leaves every other buffer alone. Walking the boundaries in order, each buffer that a later segment reads is
  therefore a named function of the argument arrays:

    * before the first call: the two edge lists (sources and destinations, a self-loop appended for every node), the
      weight dinv[src] · dinv[dst] of every edge, and the arguments as launched — none of these is written again, so
      every later boundary still holds them;
    * per layer: the projection of the previous layer's rows, its aggregation over the edges (gather at the sources,
      scale by the weights, sum at the destinations), the bias row laid out as a one-row matrix, the bias step;
    * then the mean over each graph, the perceptron, and the result column laid out as a vector.

  The composition is the reference's own composition of the same stages: the two programs differ only in where the
  projections, the bias steps and the perceptron run, and at the ideal values a block-by-block product or bias step is the
  whole one.
-/
import proofs.«175258_j44633300140823_1_alg».proof.Proof.KernelRun
import proofs.«175258_j44633300140823_1_alg».proof.Proof.RegionDense
import proofs.«175258_j44633300140823_1_alg».proof.Proof.RegionBias
import proofs.«175258_j44633300140823_1_alg».proof.Proof.RegionMlp
import proofs.«175258_j44633300140823_1_alg».proof.Proof.LibRunPieces
import proofs.«175258_j44633300140823_1_alg».proof.Proof.Stages
import proofs.«175258_j44633300140823_1_alg».proof.Proof.LibDenseBias
import Idealize.ShloMosaic.Lib.StableHlo.Run
import Idealize.ShloMosaic.PureOps.Ideal

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- A stretch of host operations read as a term: one pass over the operations, then the operands inside a
    concatenate's pairs one rewriting at a time. -/
macro "host_eval" : tactic =>
  `(tactic| (after_results_simp <;>
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- A buffer that no operation of a stretch writes holds after the stretch what it held before. -/
macro "untouched" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Before the first kernel call, in three steps: the edge lists and the degree, the inverse square root of the degree, the edge weights -/

/-- A value carried to a literal buffer's own type, or back, is the value. -/
theorem carried_dinv (v : (⟨S100000, .f32⟩ : BufTy).Contents (Elt Ideal)) :
    (TRef.of (T := ⟨S100000, .f32⟩) main_v16).toBuf v = v := rfl
theorem carried_pos (w : main_v12.ty.Contents (Elt Ideal)) :
    (TRef.of (T := ⟨S100000, .i1⟩) main_v12).ofBuf w = w := rfl
theorem carried_rsqrt (w : main_v15.ty.Contents (Elt Ideal)) :
    (TRef.of (T := ⟨S100000, .f32⟩) main_v15).ofBuf w = w := rfl
theorem carried_zero (w : main_cst_3.ty.Contents (Elt Ideal)) :
    (TRef.of (T := ⟨S_, .f32⟩) main_cst_3).ofBuf w = w := rfl

theorem w1_src : W1 m ρ c (Proc.devRef .tc main_v3) = (Cert.Stages.src (arg m c main_arg1)) := by
  dsimp only [W1]
  host_eval <;> rfl

theorem w1_dst : W1 m ρ c (Proc.devRef .tc main_v6) = (Cert.Stages.dst (arg m c main_arg1)) := by
  dsimp only [W1]
  host_eval <;> rfl

/-- Where the degree is positive. -/
theorem w1_pos : W1 m ρ c (Proc.devRef .tc main_v12) = cmpf (F := Ideal) .ogt (Cert.Stages.deg (Cert.Stages.dst (arg m c main_arg1))) (broadcastInDim Cert.ReferenceIdeal.S100000 ![] Cert.ReferenceIdeal.Gen.bcast_S_S100000 (constant (F := Ideal) Cert.ReferenceIdeal.S_ .f32 0x00000000#32)) := by
  dsimp only [W1]
  host_eval <;> rfl

/-- The inverse square root of the degree, kept away from zero. -/
theorem w1_rsqrt : W1 m ρ c (Proc.devRef .tc main_v15) = Host.rsqrt (F := Ideal) (maximumf (Cert.Stages.deg (Cert.Stages.dst (arg m c main_arg1))) (broadcastInDim Cert.ReferenceIdeal.S100000 ![] Cert.ReferenceIdeal.Gen.bcast_S_S100000 (constant (F := Ideal) Cert.ReferenceIdeal.S_ .f32 0x2B8CBCCC#32))) := by
  dsimp only [W1]
  host_eval <;> rfl

theorem w1_zero : W1 m ρ c (Proc.devRef .tc main_cst_3) = constant (F := Ideal) Cert.ReferenceIdeal.S_ .f32 0x00000000#32 := by
  dsimp only [W1]
  host_eval <;> rfl

theorem w2_src : W2 m ρ c (Proc.devRef .tc main_v3) = (Cert.Stages.src (arg m c main_arg1)) :=
  (show W2 m ρ c (Proc.devRef .tc main_v3) = W1 m ρ c (Proc.devRef .tc main_v3) by untouched hostOps0_1).trans (w1_src m ρ c)

theorem w2_dst : W2 m ρ c (Proc.devRef .tc main_v6) = (Cert.Stages.dst (arg m c main_arg1)) :=
  (show W2 m ρ c (Proc.devRef .tc main_v6) = W1 m ρ c (Proc.devRef .tc main_v6) by untouched hostOps0_1).trans (w1_dst m ρ c)

/-- The inverse square root of the degree where it is positive, zero elsewhere. -/
theorem w2_dinv : W2 m ρ c (Proc.devRef .tc main_v16) = Cert.Stages.dinv (Cert.Stages.dst (arg m c main_arg1)) := by
  show StableHlo.after hostOps0_1 (W1 m ρ c) (Proc.devRef .tc main_v16) = _
  have h12 := w1_pos m ρ c
  have h15 := w1_rsqrt m ρ c
  have h0 := w1_zero m ρ c
  generalize W1 m ρ c = Wv at h12 h15 h0 ⊢
  host_eval
  rw [h12, h15, h0]
  simp only [Cert.Lib.RunPieces.ofBuf_toBuf, Cert.Lib.RunPieces.toBuf_ofBuf, carried_dinv, carried_pos, carried_rsqrt, carried_zero]
  rfl

theorem w3_src : W3 m ρ c (Proc.devRef .tc main_v3) = (Cert.Stages.src (arg m c main_arg1)) :=
  (show W3 m ρ c (Proc.devRef .tc main_v3) = W2 m ρ c (Proc.devRef .tc main_v3) by untouched hostOps0_2).trans (w2_src m ρ c)

theorem w3_dst : W3 m ρ c (Proc.devRef .tc main_v6) = (Cert.Stages.dst (arg m c main_arg1)) :=
  (show W3 m ρ c (Proc.devRef .tc main_v6) = W2 m ρ c (Proc.devRef .tc main_v6) by untouched hostOps0_2).trans (w2_dst m ρ c)

/-- The weight of every edge. -/
theorem w3_norm : W3 m ρ c (Proc.devRef .tc main_v31) = (Cert.Stages.norm (arg m c main_arg1)) := by
  show StableHlo.after hostOps0_2 (W2 m ρ c) (Proc.devRef .tc main_v31) = _
  have h16 := w2_dinv m ρ c
  have h3 := w2_src m ρ c
  have h6 := w2_dst m ρ c
  generalize W2 m ρ c = Wv at h16 h3 h6 ⊢
  host_eval
  rw [h16, h3, h6]
  rfl

/-! ## The arguments before the first kernel call -/

theorem w3_arg0 : W3 m ρ c (Proc.devRef .tc main_arg0) = (arg m c main_arg0) := by
  dsimp only [W3, W2, W1]
  host_eval <;> rfl

theorem w3_arg2 : W3 m ρ c (Proc.devRef .tc main_arg2) = (arg m c main_arg2) := by
  dsimp only [W3, W2, W1]
  host_eval <;> rfl

theorem w3_arg3 : W3 m ρ c (Proc.devRef .tc main_arg3) = (arg m c main_arg3) := by
  dsimp only [W3, W2, W1]
  host_eval <;> rfl

theorem w3_arg4 : W3 m ρ c (Proc.devRef .tc main_arg4) = (arg m c main_arg4) := by
  dsimp only [W3, W2, W1]
  host_eval <;> rfl

theorem w3_arg5 : W3 m ρ c (Proc.devRef .tc main_arg5) = (arg m c main_arg5) := by
  dsimp only [W3, W2, W1]
  host_eval <;> rfl

theorem w3_arg6 : W3 m ρ c (Proc.devRef .tc main_arg6) = (arg m c main_arg6) := by
  dsimp only [W3, W2, W1]
  host_eval <;> rfl

theorem w3_arg7 : W3 m ρ c (Proc.devRef .tc main_arg7) = (arg m c main_arg7) := by
  dsimp only [W3, W2, W1]
  host_eval <;> rfl

theorem w3_arg8 : W3 m ρ c (Proc.devRef .tc main_arg8) = (arg m c main_arg8) := by
  dsimp only [W3, W2, W1]
  host_eval <;> rfl

theorem w3_arg9 : W3 m ρ c (Proc.devRef .tc main_arg9) = (arg m c main_arg9) := by
  dsimp only [W3, W2, W1]
  host_eval <;> rfl

theorem w3_arg10 : W3 m ρ c (Proc.devRef .tc main_arg10) = (arg m c main_arg10) := by
  dsimp only [W3, W2, W1]
  host_eval <;> rfl

theorem w3_arg11 : W3 m ρ c (Proc.devRef .tc main_arg11) = (arg m c main_arg11) := by
  dsimp only [W3, W2, W1]
  host_eval <;> rfl

theorem w3_arg12 : W3 m ρ c (Proc.devRef .tc main_arg12) = (arg m c main_arg12) := by
  dsimp only [W3, W2, W1]
  host_eval <;> rfl

theorem w3_arg13 : W3 m ρ c (Proc.devRef .tc main_arg13) = (arg m c main_arg13) := by
  dsimp only [W3, W2, W1]
  host_eval <;> rfl

theorem w3_arg14 : W3 m ρ c (Proc.devRef .tc main_arg14) = (arg m c main_arg14) := by
  dsimp only [W3, W2, W1]
  host_eval <;> rfl

/-! ## What boundary 4 keeps -/

theorem w4_src : W4 m ρ c (Proc.devRef .tc main_v3) = (Cert.Stages.src (arg m c main_arg1)) :=
  (W4_of_ne m ρ c main_v3 (by decide)).trans (w3_src m ρ c)

theorem w4_dst : W4 m ρ c (Proc.devRef .tc main_v6) = (Cert.Stages.dst (arg m c main_arg1)) :=
  (W4_of_ne m ρ c main_v6 (by decide)).trans (w3_dst m ρ c)

theorem w4_norm : W4 m ρ c (Proc.devRef .tc main_v31) = (Cert.Stages.norm (arg m c main_arg1)) :=
  (W4_of_ne m ρ c main_v31 (by decide)).trans (w3_norm m ρ c)

theorem w4_arg2 : W4 m ρ c (Proc.devRef .tc main_arg2) = (arg m c main_arg2) :=
  (W4_of_ne m ρ c main_arg2 (by decide)).trans (w3_arg2 m ρ c)

theorem w4_arg4 : W4 m ρ c (Proc.devRef .tc main_arg4) = (arg m c main_arg4) :=
  (W4_of_ne m ρ c main_arg4 (by decide)).trans (w3_arg4 m ρ c)

theorem w4_arg5 : W4 m ρ c (Proc.devRef .tc main_arg5) = (arg m c main_arg5) :=
  (W4_of_ne m ρ c main_arg5 (by decide)).trans (w3_arg5 m ρ c)

theorem w4_arg6 : W4 m ρ c (Proc.devRef .tc main_arg6) = (arg m c main_arg6) :=
  (W4_of_ne m ρ c main_arg6 (by decide)).trans (w3_arg6 m ρ c)

theorem w4_arg7 : W4 m ρ c (Proc.devRef .tc main_arg7) = (arg m c main_arg7) :=
  (W4_of_ne m ρ c main_arg7 (by decide)).trans (w3_arg7 m ρ c)

theorem w4_arg8 : W4 m ρ c (Proc.devRef .tc main_arg8) = (arg m c main_arg8) :=
  (W4_of_ne m ρ c main_arg8 (by decide)).trans (w3_arg8 m ρ c)

theorem w4_arg9 : W4 m ρ c (Proc.devRef .tc main_arg9) = (arg m c main_arg9) :=
  (W4_of_ne m ρ c main_arg9 (by decide)).trans (w3_arg9 m ρ c)

theorem w4_arg10 : W4 m ρ c (Proc.devRef .tc main_arg10) = (arg m c main_arg10) :=
  (W4_of_ne m ρ c main_arg10 (by decide)).trans (w3_arg10 m ρ c)

theorem w4_arg11 : W4 m ρ c (Proc.devRef .tc main_arg11) = (arg m c main_arg11) :=
  (W4_of_ne m ρ c main_arg11 (by decide)).trans (w3_arg11 m ρ c)

theorem w4_arg12 : W4 m ρ c (Proc.devRef .tc main_arg12) = (arg m c main_arg12) :=
  (W4_of_ne m ρ c main_arg12 (by decide)).trans (w3_arg12 m ρ c)

theorem w4_arg13 : W4 m ρ c (Proc.devRef .tc main_arg13) = (arg m c main_arg13) :=
  (W4_of_ne m ρ c main_arg13 (by decide)).trans (w3_arg13 m ρ c)

theorem w4_arg14 : W4 m ρ c (Proc.devRef .tc main_arg14) = (arg m c main_arg14) :=
  (W4_of_ne m ρ c main_arg14 (by decide)).trans (w3_arg14 m ρ c)

/-! ## What boundary 5 keeps -/

theorem w5_src : W5 m ρ c (Proc.devRef .tc main_v3) = (Cert.Stages.src (arg m c main_arg1)) :=
  (show W5 m ρ c (Proc.devRef .tc main_v3) = W4 m ρ c (Proc.devRef .tc main_v3) by untouched hostOps1).trans (w4_src m ρ c)

theorem w5_dst : W5 m ρ c (Proc.devRef .tc main_v6) = (Cert.Stages.dst (arg m c main_arg1)) :=
  (show W5 m ρ c (Proc.devRef .tc main_v6) = W4 m ρ c (Proc.devRef .tc main_v6) by untouched hostOps1).trans (w4_dst m ρ c)

theorem w5_norm : W5 m ρ c (Proc.devRef .tc main_v31) = (Cert.Stages.norm (arg m c main_arg1)) :=
  (show W5 m ρ c (Proc.devRef .tc main_v31) = W4 m ρ c (Proc.devRef .tc main_v31) by untouched hostOps1).trans (w4_norm m ρ c)

theorem w5_arg2 : W5 m ρ c (Proc.devRef .tc main_arg2) = (arg m c main_arg2) :=
  (show W5 m ρ c (Proc.devRef .tc main_arg2) = W4 m ρ c (Proc.devRef .tc main_arg2) by untouched hostOps1).trans (w4_arg2 m ρ c)

theorem w5_arg5 : W5 m ρ c (Proc.devRef .tc main_arg5) = (arg m c main_arg5) :=
  (show W5 m ρ c (Proc.devRef .tc main_arg5) = W4 m ρ c (Proc.devRef .tc main_arg5) by untouched hostOps1).trans (w4_arg5 m ρ c)

theorem w5_arg6 : W5 m ρ c (Proc.devRef .tc main_arg6) = (arg m c main_arg6) :=
  (show W5 m ρ c (Proc.devRef .tc main_arg6) = W4 m ρ c (Proc.devRef .tc main_arg6) by untouched hostOps1).trans (w4_arg6 m ρ c)

theorem w5_arg7 : W5 m ρ c (Proc.devRef .tc main_arg7) = (arg m c main_arg7) :=
  (show W5 m ρ c (Proc.devRef .tc main_arg7) = W4 m ρ c (Proc.devRef .tc main_arg7) by untouched hostOps1).trans (w4_arg7 m ρ c)

theorem w5_arg8 : W5 m ρ c (Proc.devRef .tc main_arg8) = (arg m c main_arg8) :=
  (show W5 m ρ c (Proc.devRef .tc main_arg8) = W4 m ρ c (Proc.devRef .tc main_arg8) by untouched hostOps1).trans (w4_arg8 m ρ c)

theorem w5_arg9 : W5 m ρ c (Proc.devRef .tc main_arg9) = (arg m c main_arg9) :=
  (show W5 m ρ c (Proc.devRef .tc main_arg9) = W4 m ρ c (Proc.devRef .tc main_arg9) by untouched hostOps1).trans (w4_arg9 m ρ c)

theorem w5_arg10 : W5 m ρ c (Proc.devRef .tc main_arg10) = (arg m c main_arg10) :=
  (show W5 m ρ c (Proc.devRef .tc main_arg10) = W4 m ρ c (Proc.devRef .tc main_arg10) by untouched hostOps1).trans (w4_arg10 m ρ c)

theorem w5_arg11 : W5 m ρ c (Proc.devRef .tc main_arg11) = (arg m c main_arg11) :=
  (show W5 m ρ c (Proc.devRef .tc main_arg11) = W4 m ρ c (Proc.devRef .tc main_arg11) by untouched hostOps1).trans (w4_arg11 m ρ c)

theorem w5_arg12 : W5 m ρ c (Proc.devRef .tc main_arg12) = (arg m c main_arg12) :=
  (show W5 m ρ c (Proc.devRef .tc main_arg12) = W4 m ρ c (Proc.devRef .tc main_arg12) by untouched hostOps1).trans (w4_arg12 m ρ c)

theorem w5_arg13 : W5 m ρ c (Proc.devRef .tc main_arg13) = (arg m c main_arg13) :=
  (show W5 m ρ c (Proc.devRef .tc main_arg13) = W4 m ρ c (Proc.devRef .tc main_arg13) by untouched hostOps1).trans (w4_arg13 m ρ c)

theorem w5_arg14 : W5 m ρ c (Proc.devRef .tc main_arg14) = (arg m c main_arg14) :=
  (show W5 m ρ c (Proc.devRef .tc main_arg14) = W4 m ρ c (Proc.devRef .tc main_arg14) by untouched hostOps1).trans (w4_arg14 m ρ c)

/-! ## What boundary 6 keeps -/

theorem w6_src : W6 m ρ c (Proc.devRef .tc main_v3) = (Cert.Stages.src (arg m c main_arg1)) :=
  (W6_of_ne m ρ c main_v3 (by decide)).trans (w5_src m ρ c)

theorem w6_dst : W6 m ρ c (Proc.devRef .tc main_v6) = (Cert.Stages.dst (arg m c main_arg1)) :=
  (W6_of_ne m ρ c main_v6 (by decide)).trans (w5_dst m ρ c)

theorem w6_norm : W6 m ρ c (Proc.devRef .tc main_v31) = (Cert.Stages.norm (arg m c main_arg1)) :=
  (W6_of_ne m ρ c main_v31 (by decide)).trans (w5_norm m ρ c)

theorem w6_arg2 : W6 m ρ c (Proc.devRef .tc main_arg2) = (arg m c main_arg2) :=
  (W6_of_ne m ρ c main_arg2 (by decide)).trans (w5_arg2 m ρ c)

theorem w6_arg5 : W6 m ρ c (Proc.devRef .tc main_arg5) = (arg m c main_arg5) :=
  (W6_of_ne m ρ c main_arg5 (by decide)).trans (w5_arg5 m ρ c)

theorem w6_arg6 : W6 m ρ c (Proc.devRef .tc main_arg6) = (arg m c main_arg6) :=
  (W6_of_ne m ρ c main_arg6 (by decide)).trans (w5_arg6 m ρ c)

theorem w6_arg7 : W6 m ρ c (Proc.devRef .tc main_arg7) = (arg m c main_arg7) :=
  (W6_of_ne m ρ c main_arg7 (by decide)).trans (w5_arg7 m ρ c)

theorem w6_arg8 : W6 m ρ c (Proc.devRef .tc main_arg8) = (arg m c main_arg8) :=
  (W6_of_ne m ρ c main_arg8 (by decide)).trans (w5_arg8 m ρ c)

theorem w6_arg9 : W6 m ρ c (Proc.devRef .tc main_arg9) = (arg m c main_arg9) :=
  (W6_of_ne m ρ c main_arg9 (by decide)).trans (w5_arg9 m ρ c)

theorem w6_arg10 : W6 m ρ c (Proc.devRef .tc main_arg10) = (arg m c main_arg10) :=
  (W6_of_ne m ρ c main_arg10 (by decide)).trans (w5_arg10 m ρ c)

theorem w6_arg11 : W6 m ρ c (Proc.devRef .tc main_arg11) = (arg m c main_arg11) :=
  (W6_of_ne m ρ c main_arg11 (by decide)).trans (w5_arg11 m ρ c)

theorem w6_arg12 : W6 m ρ c (Proc.devRef .tc main_arg12) = (arg m c main_arg12) :=
  (W6_of_ne m ρ c main_arg12 (by decide)).trans (w5_arg12 m ρ c)

theorem w6_arg13 : W6 m ρ c (Proc.devRef .tc main_arg13) = (arg m c main_arg13) :=
  (W6_of_ne m ρ c main_arg13 (by decide)).trans (w5_arg13 m ρ c)

theorem w6_arg14 : W6 m ρ c (Proc.devRef .tc main_arg14) = (arg m c main_arg14) :=
  (W6_of_ne m ρ c main_arg14 (by decide)).trans (w5_arg14 m ρ c)

/-! ## What boundary 7 keeps -/

theorem w7_src : W7 m ρ c (Proc.devRef .tc main_v3) = (Cert.Stages.src (arg m c main_arg1)) :=
  (W7_of_ne m ρ c main_v3 (by decide)).trans (w6_src m ρ c)

theorem w7_dst : W7 m ρ c (Proc.devRef .tc main_v6) = (Cert.Stages.dst (arg m c main_arg1)) :=
  (W7_of_ne m ρ c main_v6 (by decide)).trans (w6_dst m ρ c)

theorem w7_norm : W7 m ρ c (Proc.devRef .tc main_v31) = (Cert.Stages.norm (arg m c main_arg1)) :=
  (W7_of_ne m ρ c main_v31 (by decide)).trans (w6_norm m ρ c)

theorem w7_arg2 : W7 m ρ c (Proc.devRef .tc main_arg2) = (arg m c main_arg2) :=
  (W7_of_ne m ρ c main_arg2 (by decide)).trans (w6_arg2 m ρ c)

theorem w7_arg6 : W7 m ρ c (Proc.devRef .tc main_arg6) = (arg m c main_arg6) :=
  (W7_of_ne m ρ c main_arg6 (by decide)).trans (w6_arg6 m ρ c)

theorem w7_arg7 : W7 m ρ c (Proc.devRef .tc main_arg7) = (arg m c main_arg7) :=
  (W7_of_ne m ρ c main_arg7 (by decide)).trans (w6_arg7 m ρ c)

theorem w7_arg8 : W7 m ρ c (Proc.devRef .tc main_arg8) = (arg m c main_arg8) :=
  (W7_of_ne m ρ c main_arg8 (by decide)).trans (w6_arg8 m ρ c)

theorem w7_arg9 : W7 m ρ c (Proc.devRef .tc main_arg9) = (arg m c main_arg9) :=
  (W7_of_ne m ρ c main_arg9 (by decide)).trans (w6_arg9 m ρ c)

theorem w7_arg10 : W7 m ρ c (Proc.devRef .tc main_arg10) = (arg m c main_arg10) :=
  (W7_of_ne m ρ c main_arg10 (by decide)).trans (w6_arg10 m ρ c)

theorem w7_arg11 : W7 m ρ c (Proc.devRef .tc main_arg11) = (arg m c main_arg11) :=
  (W7_of_ne m ρ c main_arg11 (by decide)).trans (w6_arg11 m ρ c)

theorem w7_arg12 : W7 m ρ c (Proc.devRef .tc main_arg12) = (arg m c main_arg12) :=
  (W7_of_ne m ρ c main_arg12 (by decide)).trans (w6_arg12 m ρ c)

theorem w7_arg13 : W7 m ρ c (Proc.devRef .tc main_arg13) = (arg m c main_arg13) :=
  (W7_of_ne m ρ c main_arg13 (by decide)).trans (w6_arg13 m ρ c)

theorem w7_arg14 : W7 m ρ c (Proc.devRef .tc main_arg14) = (arg m c main_arg14) :=
  (W7_of_ne m ρ c main_arg14 (by decide)).trans (w6_arg14 m ρ c)

/-! ## What boundary 8 keeps -/

theorem w8_src : W8 m ρ c (Proc.devRef .tc main_v3) = (Cert.Stages.src (arg m c main_arg1)) :=
  (show W8 m ρ c (Proc.devRef .tc main_v3) = W7 m ρ c (Proc.devRef .tc main_v3) by untouched hostOps3).trans (w7_src m ρ c)

theorem w8_dst : W8 m ρ c (Proc.devRef .tc main_v6) = (Cert.Stages.dst (arg m c main_arg1)) :=
  (show W8 m ρ c (Proc.devRef .tc main_v6) = W7 m ρ c (Proc.devRef .tc main_v6) by untouched hostOps3).trans (w7_dst m ρ c)

theorem w8_norm : W8 m ρ c (Proc.devRef .tc main_v31) = (Cert.Stages.norm (arg m c main_arg1)) :=
  (show W8 m ρ c (Proc.devRef .tc main_v31) = W7 m ρ c (Proc.devRef .tc main_v31) by untouched hostOps3).trans (w7_norm m ρ c)

theorem w8_arg2 : W8 m ρ c (Proc.devRef .tc main_arg2) = (arg m c main_arg2) :=
  (show W8 m ρ c (Proc.devRef .tc main_arg2) = W7 m ρ c (Proc.devRef .tc main_arg2) by untouched hostOps3).trans (w7_arg2 m ρ c)

theorem w8_arg7 : W8 m ρ c (Proc.devRef .tc main_arg7) = (arg m c main_arg7) :=
  (show W8 m ρ c (Proc.devRef .tc main_arg7) = W7 m ρ c (Proc.devRef .tc main_arg7) by untouched hostOps3).trans (w7_arg7 m ρ c)

theorem w8_arg8 : W8 m ρ c (Proc.devRef .tc main_arg8) = (arg m c main_arg8) :=
  (show W8 m ρ c (Proc.devRef .tc main_arg8) = W7 m ρ c (Proc.devRef .tc main_arg8) by untouched hostOps3).trans (w7_arg8 m ρ c)

theorem w8_arg9 : W8 m ρ c (Proc.devRef .tc main_arg9) = (arg m c main_arg9) :=
  (show W8 m ρ c (Proc.devRef .tc main_arg9) = W7 m ρ c (Proc.devRef .tc main_arg9) by untouched hostOps3).trans (w7_arg9 m ρ c)

theorem w8_arg10 : W8 m ρ c (Proc.devRef .tc main_arg10) = (arg m c main_arg10) :=
  (show W8 m ρ c (Proc.devRef .tc main_arg10) = W7 m ρ c (Proc.devRef .tc main_arg10) by untouched hostOps3).trans (w7_arg10 m ρ c)

theorem w8_arg11 : W8 m ρ c (Proc.devRef .tc main_arg11) = (arg m c main_arg11) :=
  (show W8 m ρ c (Proc.devRef .tc main_arg11) = W7 m ρ c (Proc.devRef .tc main_arg11) by untouched hostOps3).trans (w7_arg11 m ρ c)

theorem w8_arg12 : W8 m ρ c (Proc.devRef .tc main_arg12) = (arg m c main_arg12) :=
  (show W8 m ρ c (Proc.devRef .tc main_arg12) = W7 m ρ c (Proc.devRef .tc main_arg12) by untouched hostOps3).trans (w7_arg12 m ρ c)

theorem w8_arg13 : W8 m ρ c (Proc.devRef .tc main_arg13) = (arg m c main_arg13) :=
  (show W8 m ρ c (Proc.devRef .tc main_arg13) = W7 m ρ c (Proc.devRef .tc main_arg13) by untouched hostOps3).trans (w7_arg13 m ρ c)

theorem w8_arg14 : W8 m ρ c (Proc.devRef .tc main_arg14) = (arg m c main_arg14) :=
  (show W8 m ρ c (Proc.devRef .tc main_arg14) = W7 m ρ c (Proc.devRef .tc main_arg14) by untouched hostOps3).trans (w7_arg14 m ρ c)

/-! ## What boundary 9 keeps -/

theorem w9_src : W9 m ρ c (Proc.devRef .tc main_v3) = (Cert.Stages.src (arg m c main_arg1)) :=
  (W9_of_ne m ρ c main_v3 (by decide)).trans (w8_src m ρ c)

theorem w9_dst : W9 m ρ c (Proc.devRef .tc main_v6) = (Cert.Stages.dst (arg m c main_arg1)) :=
  (W9_of_ne m ρ c main_v6 (by decide)).trans (w8_dst m ρ c)

theorem w9_norm : W9 m ρ c (Proc.devRef .tc main_v31) = (Cert.Stages.norm (arg m c main_arg1)) :=
  (W9_of_ne m ρ c main_v31 (by decide)).trans (w8_norm m ρ c)

theorem w9_arg2 : W9 m ρ c (Proc.devRef .tc main_arg2) = (arg m c main_arg2) :=
  (W9_of_ne m ρ c main_arg2 (by decide)).trans (w8_arg2 m ρ c)

theorem w9_arg7 : W9 m ρ c (Proc.devRef .tc main_arg7) = (arg m c main_arg7) :=
  (W9_of_ne m ρ c main_arg7 (by decide)).trans (w8_arg7 m ρ c)

theorem w9_arg8 : W9 m ρ c (Proc.devRef .tc main_arg8) = (arg m c main_arg8) :=
  (W9_of_ne m ρ c main_arg8 (by decide)).trans (w8_arg8 m ρ c)

theorem w9_arg9 : W9 m ρ c (Proc.devRef .tc main_arg9) = (arg m c main_arg9) :=
  (W9_of_ne m ρ c main_arg9 (by decide)).trans (w8_arg9 m ρ c)

theorem w9_arg10 : W9 m ρ c (Proc.devRef .tc main_arg10) = (arg m c main_arg10) :=
  (W9_of_ne m ρ c main_arg10 (by decide)).trans (w8_arg10 m ρ c)

theorem w9_arg11 : W9 m ρ c (Proc.devRef .tc main_arg11) = (arg m c main_arg11) :=
  (W9_of_ne m ρ c main_arg11 (by decide)).trans (w8_arg11 m ρ c)

theorem w9_arg12 : W9 m ρ c (Proc.devRef .tc main_arg12) = (arg m c main_arg12) :=
  (W9_of_ne m ρ c main_arg12 (by decide)).trans (w8_arg12 m ρ c)

theorem w9_arg13 : W9 m ρ c (Proc.devRef .tc main_arg13) = (arg m c main_arg13) :=
  (W9_of_ne m ρ c main_arg13 (by decide)).trans (w8_arg13 m ρ c)

theorem w9_arg14 : W9 m ρ c (Proc.devRef .tc main_arg14) = (arg m c main_arg14) :=
  (W9_of_ne m ρ c main_arg14 (by decide)).trans (w8_arg14 m ρ c)

/-! ## What boundary 10 keeps -/

theorem w10_src : W10 m ρ c (Proc.devRef .tc main_v3) = (Cert.Stages.src (arg m c main_arg1)) :=
  (W10_of_ne m ρ c main_v3 (by decide)).trans (w9_src m ρ c)

theorem w10_dst : W10 m ρ c (Proc.devRef .tc main_v6) = (Cert.Stages.dst (arg m c main_arg1)) :=
  (W10_of_ne m ρ c main_v6 (by decide)).trans (w9_dst m ρ c)

theorem w10_norm : W10 m ρ c (Proc.devRef .tc main_v31) = (Cert.Stages.norm (arg m c main_arg1)) :=
  (W10_of_ne m ρ c main_v31 (by decide)).trans (w9_norm m ρ c)

theorem w10_arg2 : W10 m ρ c (Proc.devRef .tc main_arg2) = (arg m c main_arg2) :=
  (W10_of_ne m ρ c main_arg2 (by decide)).trans (w9_arg2 m ρ c)

theorem w10_arg8 : W10 m ρ c (Proc.devRef .tc main_arg8) = (arg m c main_arg8) :=
  (W10_of_ne m ρ c main_arg8 (by decide)).trans (w9_arg8 m ρ c)

theorem w10_arg9 : W10 m ρ c (Proc.devRef .tc main_arg9) = (arg m c main_arg9) :=
  (W10_of_ne m ρ c main_arg9 (by decide)).trans (w9_arg9 m ρ c)

theorem w10_arg10 : W10 m ρ c (Proc.devRef .tc main_arg10) = (arg m c main_arg10) :=
  (W10_of_ne m ρ c main_arg10 (by decide)).trans (w9_arg10 m ρ c)

theorem w10_arg11 : W10 m ρ c (Proc.devRef .tc main_arg11) = (arg m c main_arg11) :=
  (W10_of_ne m ρ c main_arg11 (by decide)).trans (w9_arg11 m ρ c)

theorem w10_arg12 : W10 m ρ c (Proc.devRef .tc main_arg12) = (arg m c main_arg12) :=
  (W10_of_ne m ρ c main_arg12 (by decide)).trans (w9_arg12 m ρ c)

theorem w10_arg13 : W10 m ρ c (Proc.devRef .tc main_arg13) = (arg m c main_arg13) :=
  (W10_of_ne m ρ c main_arg13 (by decide)).trans (w9_arg13 m ρ c)

theorem w10_arg14 : W10 m ρ c (Proc.devRef .tc main_arg14) = (arg m c main_arg14) :=
  (W10_of_ne m ρ c main_arg14 (by decide)).trans (w9_arg14 m ρ c)

/-! ## What boundary 11 keeps -/

theorem w11_arg2 : W11 m ρ c (Proc.devRef .tc main_arg2) = (arg m c main_arg2) :=
  (show W11 m ρ c (Proc.devRef .tc main_arg2) = W10 m ρ c (Proc.devRef .tc main_arg2) by untouched hostOps5).trans (w10_arg2 m ρ c)

theorem w11_arg9 : W11 m ρ c (Proc.devRef .tc main_arg9) = (arg m c main_arg9) :=
  (show W11 m ρ c (Proc.devRef .tc main_arg9) = W10 m ρ c (Proc.devRef .tc main_arg9) by untouched hostOps5).trans (w10_arg9 m ρ c)

theorem w11_arg10 : W11 m ρ c (Proc.devRef .tc main_arg10) = (arg m c main_arg10) :=
  (show W11 m ρ c (Proc.devRef .tc main_arg10) = W10 m ρ c (Proc.devRef .tc main_arg10) by untouched hostOps5).trans (w10_arg10 m ρ c)

theorem w11_arg11 : W11 m ρ c (Proc.devRef .tc main_arg11) = (arg m c main_arg11) :=
  (show W11 m ρ c (Proc.devRef .tc main_arg11) = W10 m ρ c (Proc.devRef .tc main_arg11) by untouched hostOps5).trans (w10_arg11 m ρ c)

theorem w11_arg12 : W11 m ρ c (Proc.devRef .tc main_arg12) = (arg m c main_arg12) :=
  (show W11 m ρ c (Proc.devRef .tc main_arg12) = W10 m ρ c (Proc.devRef .tc main_arg12) by untouched hostOps5).trans (w10_arg12 m ρ c)

theorem w11_arg13 : W11 m ρ c (Proc.devRef .tc main_arg13) = (arg m c main_arg13) :=
  (show W11 m ρ c (Proc.devRef .tc main_arg13) = W10 m ρ c (Proc.devRef .tc main_arg13) by untouched hostOps5).trans (w10_arg13 m ρ c)

theorem w11_arg14 : W11 m ρ c (Proc.devRef .tc main_arg14) = (arg m c main_arg14) :=
  (show W11 m ρ c (Proc.devRef .tc main_arg14) = W10 m ρ c (Proc.devRef .tc main_arg14) by untouched hostOps5).trans (w10_arg14 m ρ c)

/-! ## What boundary 12 keeps -/

theorem w12_arg2 : W12 m ρ c (Proc.devRef .tc main_arg2) = (arg m c main_arg2) :=
  (W12_of_ne m ρ c main_arg2 (by decide)).trans (w11_arg2 m ρ c)

theorem w12_arg9 : W12 m ρ c (Proc.devRef .tc main_arg9) = (arg m c main_arg9) :=
  (W12_of_ne m ρ c main_arg9 (by decide)).trans (w11_arg9 m ρ c)

theorem w12_arg10 : W12 m ρ c (Proc.devRef .tc main_arg10) = (arg m c main_arg10) :=
  (W12_of_ne m ρ c main_arg10 (by decide)).trans (w11_arg10 m ρ c)

theorem w12_arg11 : W12 m ρ c (Proc.devRef .tc main_arg11) = (arg m c main_arg11) :=
  (W12_of_ne m ρ c main_arg11 (by decide)).trans (w11_arg11 m ρ c)

theorem w12_arg12 : W12 m ρ c (Proc.devRef .tc main_arg12) = (arg m c main_arg12) :=
  (W12_of_ne m ρ c main_arg12 (by decide)).trans (w11_arg12 m ρ c)

theorem w12_arg13 : W12 m ρ c (Proc.devRef .tc main_arg13) = (arg m c main_arg13) :=
  (W12_of_ne m ρ c main_arg13 (by decide)).trans (w11_arg13 m ρ c)

theorem w12_arg14 : W12 m ρ c (Proc.devRef .tc main_arg14) = (arg m c main_arg14) :=
  (W12_of_ne m ρ c main_arg14 (by decide)).trans (w11_arg14 m ρ c)

/-! ## What boundary 13 keeps -/

theorem w13_arg9 : W13 m ρ c (Proc.devRef .tc main_arg9) = (arg m c main_arg9) :=
  (show W13 m ρ c (Proc.devRef .tc main_arg9) = W12 m ρ c (Proc.devRef .tc main_arg9) by untouched hostOps6).trans (w12_arg9 m ρ c)

theorem w13_arg11 : W13 m ρ c (Proc.devRef .tc main_arg11) = (arg m c main_arg11) :=
  (show W13 m ρ c (Proc.devRef .tc main_arg11) = W12 m ρ c (Proc.devRef .tc main_arg11) by untouched hostOps6).trans (w12_arg11 m ρ c)

theorem w13_arg13 : W13 m ρ c (Proc.devRef .tc main_arg13) = (arg m c main_arg13) :=
  (show W13 m ρ c (Proc.devRef .tc main_arg13) = W12 m ρ c (Proc.devRef .tc main_arg13) by untouched hostOps6).trans (w12_arg13 m ρ c)

/-! ## The first layer -/

theorem w4_hw1 : W4 m ρ c (Proc.devRef .tc main_v32) = (Cert.Stages.dense1 (arg m c main_arg0) (arg m c main_arg3)) := by
  refine (W4_arr m ρ c (2 : Fin cfg0.W)).trans ?_
  have e0 : V3 m ρ c main_arg0 = (arg m c main_arg0) := w3_arg0 m ρ c
  have e1 : V3 m ρ c main_arg3 = (arg m c main_arg3) := w3_arg3 m ρ c
  rw [Cert.KernelIdeal.Regions.dense0 (V3 m ρ) c, e0, e1]
  rfl

theorem w5_agg1 : W5 m ρ c (Proc.devRef .tc main_v45) = (Cert.Stages.agg (arg m c main_arg1) (Cert.Stages.dense1 (arg m c main_arg0) (arg m c main_arg3))) := by
  show StableHlo.after hostOps1 (W4 m ρ c) (Proc.devRef .tc main_v45) = _
  host_eval
  rw [w4_hw1 m ρ c, w4_src m ρ c, w4_dst m ρ c, w4_norm m ρ c]
  rfl

theorem w5_row1 : W5 m ρ c (Proc.devRef .tc main_v46) = (broadcastInDim Cert.ReferenceIdeal.S1x128 ![1] Cert.ReferenceIdeal.Gen.bcast_S128_S1x128_1 (arg m c main_arg4)) := by
  show StableHlo.after hostOps1 (W4 m ρ c) (Proc.devRef .tc main_v46) = _
  host_eval
  rw [w4_arg4 m ρ c]
  exact Cert.Lib.DenseBias.bias_row_eq (arg m c main_arg4) _ _

theorem w6_x1 : W6 m ρ c (Proc.devRef .tc main_v47) = (Cert.Stages.biasRelu (Cert.Stages.agg (arg m c main_arg1) (Cert.Stages.dense1 (arg m c main_arg0) (arg m c main_arg3))) (arg m c main_arg4)) := by
  refine (W6_arr m ρ c (2 : Fin cfg1.W)).trans ?_
  have e0 : V5 m ρ c main_v45 = _ := w5_agg1 m ρ c
  have e1 : V5 m ρ c main_v46 = _ := w5_row1 m ρ c
  rw [Cert.KernelIdeal.Regions.biasRelu1 (V5 m ρ) c Cert.ReferenceIdeal.Gen.bcast_S1x128_S100000x128_0_1 Cert.ReferenceIdeal.Gen.bcast_S_S100000x128, e0, e1]
  rfl

/-! ## The second layer -/

theorem w7_hw2 : W7 m ρ c (Proc.devRef .tc main_v48) = (Cert.Stages.dense (Cert.Stages.biasRelu (Cert.Stages.agg (arg m c main_arg1) (Cert.Stages.dense1 (arg m c main_arg0) (arg m c main_arg3))) (arg m c main_arg4)) (arg m c main_arg5)) := by
  refine (W7_arr m ρ c (2 : Fin cfg2.W)).trans ?_
  have e0 : V6 m ρ c main_v47 = (Cert.Stages.biasRelu (Cert.Stages.agg (arg m c main_arg1) (Cert.Stages.dense1 (arg m c main_arg0) (arg m c main_arg3))) (arg m c main_arg4)) := w6_x1 m ρ c
  have e1 : V6 m ρ c main_arg5 = (arg m c main_arg5) := w6_arg5 m ρ c
  rw [Cert.KernelIdeal.Regions.dense2 (V6 m ρ) c, e0, e1]
  rfl

theorem w8_agg2 : W8 m ρ c (Proc.devRef .tc main_v61) = (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) := by
  show StableHlo.after hostOps3 (W7 m ρ c) (Proc.devRef .tc main_v61) = _
  host_eval
  rw [w7_hw2 m ρ c, w7_src m ρ c, w7_dst m ρ c, w7_norm m ρ c]
  rfl

theorem w8_row2 : W8 m ρ c (Proc.devRef .tc main_v62) = (broadcastInDim Cert.ReferenceIdeal.S1x128 ![1] Cert.ReferenceIdeal.Gen.bcast_S128_S1x128_1 (arg m c main_arg6)) := by
  show StableHlo.after hostOps3 (W7 m ρ c) (Proc.devRef .tc main_v62) = _
  host_eval
  rw [w7_arg6 m ρ c]
  exact Cert.Lib.DenseBias.bias_row_eq (arg m c main_arg6) _ _

theorem w9_x2 : W9 m ρ c (Proc.devRef .tc main_v63) = (Cert.Stages.biasRelu (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) (arg m c main_arg6)) := by
  refine (W9_arr m ρ c (2 : Fin cfg3.W)).trans ?_
  have e0 : V8 m ρ c main_v61 = _ := w8_agg2 m ρ c
  have e1 : V8 m ρ c main_v62 = _ := w8_row2 m ρ c
  rw [Cert.KernelIdeal.Regions.biasRelu3 (V8 m ρ) c Cert.ReferenceIdeal.Gen.bcast_S1x128_S100000x128_0_1 Cert.ReferenceIdeal.Gen.bcast_S_S100000x128, e0, e1]
  rfl

/-! ## The third layer -/

theorem w10_hw3 : W10 m ρ c (Proc.devRef .tc main_v64) = (Cert.Stages.dense (Cert.Stages.biasRelu (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) (arg m c main_arg6)) (arg m c main_arg7)) := by
  refine (W10_arr m ρ c (2 : Fin cfg4.W)).trans ?_
  have e0 : V9 m ρ c main_v63 = (Cert.Stages.biasRelu (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) (arg m c main_arg6)) := w9_x2 m ρ c
  have e1 : V9 m ρ c main_arg7 = (arg m c main_arg7) := w9_arg7 m ρ c
  rw [Cert.KernelIdeal.Regions.dense4 (V9 m ρ) c, e0, e1]
  rfl

theorem w11_agg3 : W11 m ρ c (Proc.devRef .tc main_v77) = (Cert.Stages.agg (arg m c main_arg1) (Cert.Stages.dense (Cert.Stages.biasRelu (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) (arg m c main_arg6)) (arg m c main_arg7))) := by
  show StableHlo.after hostOps5 (W10 m ρ c) (Proc.devRef .tc main_v77) = _
  host_eval
  rw [w10_hw3 m ρ c, w10_src m ρ c, w10_dst m ρ c, w10_norm m ρ c]
  rfl

theorem w11_row3 : W11 m ρ c (Proc.devRef .tc main_v78) = (broadcastInDim Cert.ReferenceIdeal.S1x128 ![1] Cert.ReferenceIdeal.Gen.bcast_S128_S1x128_1 (arg m c main_arg8)) := by
  show StableHlo.after hostOps5 (W10 m ρ c) (Proc.devRef .tc main_v78) = _
  host_eval
  rw [w10_arg8 m ρ c]
  exact Cert.Lib.DenseBias.bias_row_eq (arg m c main_arg8) _ _

theorem w12_x3 : W12 m ρ c (Proc.devRef .tc main_v79) = (Cert.Stages.biasRelu (Cert.Stages.agg (arg m c main_arg1) (Cert.Stages.dense (Cert.Stages.biasRelu (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) (arg m c main_arg6)) (arg m c main_arg7))) (arg m c main_arg8)) := by
  refine (W12_arr m ρ c (2 : Fin cfg5.W)).trans ?_
  have e0 : V11 m ρ c main_v77 = _ := w11_agg3 m ρ c
  have e1 : V11 m ρ c main_v78 = _ := w11_row3 m ρ c
  rw [Cert.KernelIdeal.Regions.biasRelu5 (V11 m ρ) c Cert.ReferenceIdeal.Gen.bcast_S1x128_S100000x128_0_1 Cert.ReferenceIdeal.Gen.bcast_S_S100000x128, e0, e1]
  rfl

/-! ## The pooling, the perceptron, the result -/

theorem w13_pool : W13 m ρ c (Proc.devRef .tc main_v91) = (Cert.Stages.pool (Cert.Stages.biasRelu (Cert.Stages.agg (arg m c main_arg1) (Cert.Stages.dense (Cert.Stages.biasRelu (Cert.Stages.agg (arg m c main_arg1) (Cert.Stages.dense (Cert.Stages.biasRelu (Cert.Stages.agg (arg m c main_arg1) (Cert.Stages.dense1 (arg m c main_arg0) (arg m c main_arg3))) (arg m c main_arg4)) (arg m c main_arg5))) (arg m c main_arg6)) (arg m c main_arg7))) (arg m c main_arg8)) (arg m c main_arg2)) := by
  show StableHlo.after hostOps6 (W12 m ρ c) (Proc.devRef .tc main_v91) = _
  host_eval
  rw [w12_x3 m ρ c, w12_arg2 m ρ c]
  rfl

theorem w13_row1 : W13 m ρ c (Proc.devRef .tc main_v92) = (broadcastInDim Cert.ReferenceIdeal.S1x128 ![1] Cert.ReferenceIdeal.Gen.bcast_S128_S1x128_1 (arg m c main_arg10)) := by
  show StableHlo.after hostOps6 (W12 m ρ c) (Proc.devRef .tc main_v92) = _
  host_eval
  rw [w12_arg10 m ρ c]
  exact Cert.Lib.DenseBias.bias_row_eq (arg m c main_arg10) _ _

theorem w13_row2 : W13 m ρ c (Proc.devRef .tc main_v93) = (broadcastInDim Cert.ReferenceIdeal.S1x128 ![1] Cert.ReferenceIdeal.Gen.bcast_S128_S1x128_1 (arg m c main_arg12)) := by
  show StableHlo.after hostOps6 (W12 m ρ c) (Proc.devRef .tc main_v93) = _
  host_eval
  rw [w12_arg12 m ρ c]
  exact Cert.Lib.DenseBias.bias_row_eq (arg m c main_arg12) _ _

theorem w13_row3 : W13 m ρ c (Proc.devRef .tc main_v94) = (broadcastInDim Cert.ReferenceIdeal.S1x1 ![1] Cert.ReferenceIdeal.Gen.bcast_S1_S1x1_1 (arg m c main_arg14)) := by
  show StableHlo.after hostOps6 (W12 m ρ c) (Proc.devRef .tc main_v94) = _
  host_eval
  rw [w12_arg14 m ρ c]
  exact Cert.Lib.DenseBias.bias_row_eq (arg m c main_arg14) _ _

theorem w15_out : W15 m ρ c (Proc.devRef .tc main_v96)
    = Cert.Stages.final (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  show StableHlo.after hostOps7 (W14 m ρ c) (Proc.devRef .tc main_v96) = _
  host_eval
  have h95 : W14 m ρ c (Proc.devRef .tc main_v95) = (dat6 (V13 m ρ) c).arrAt 7 cfg6.N := W14_arr m ρ c (7 : Fin cfg6.W)
  have e0 : V13 m ρ c main_v91 = _ := w13_pool m ρ c
  have e1 : V13 m ρ c main_arg9 = _ := w13_arg9 m ρ c
  have e2 : V13 m ρ c main_v92 = _ := w13_row1 m ρ c
  have e3 : V13 m ρ c main_arg11 = _ := w13_arg11 m ρ c
  have e4 : V13 m ρ c main_v93 = _ := w13_row2 m ρ c
  have e5 : V13 m ρ c main_arg13 = _ := w13_arg13 m ρ c
  have e6 : V13 m ρ c main_v94 = _ := w13_row3 m ρ c
  rw [h95, Cert.KernelIdeal.Regions.mlp6 (V13 m ρ) c Cert.ReferenceIdeal.Gen.bcast_S1x128_S2048x128_0_1 Cert.ReferenceIdeal.Gen.bcast_S_S2048x128 Cert.ReferenceIdeal.Gen.bcast_S1x1_S2048x1_0_1, e0, e1, e2, e3, e4, e5, e6]
  rfl

end Cert.KernelIdeal.Walk

end
-- ==== Proof.RefBridge.lean ====
/-
  The reference's result, named.

  The reference's run ends with its result buffer at one long term of the fifteen argument arrays. That term is, piece
  for piece, the composition of the named stages (the edge lists, the edge weights, three times "project, aggregate
  over the edges, add the bias, take the maximum with zero", the mean over each graph, the three-layer perceptron):
  unfolding the names gives the term back, symbol for symbol.
-/
import proofs.«175258_j44633300140823_1_alg».proof.Proof.RefRunPatched
import proofs.«175258_j44633300140823_1_alg».proof.Proof.Stages
import Idealize.ShloMosaic.PureOps.Ideal

set_option maxRecDepth 16384

noncomputable section

namespace Cert.RefBridge

open Cert.ReferenceIdeal Cert.ReferenceIdeal.Gen Idealize.ShloMosaic Idealize.ShloMosaic.TcCoe Idealize.SL.Sem

/-- The reference's result term is the stages' composition at the argument arrays. -/
theorem ref_final (m : (ℓ : Loc nD τ sig) → Buf (Elt Ideal) ℓ) (c : Dev nD) :
    Cert.ReferenceIdeal.ValueP.res_main_v112 (F := Ideal) m c
      = Cert.Stages.final (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.ValueP.res_main_v112
  rfl

end Cert.RefBridge

end
-- ==== Proof.lean ====
/-
  The certificate's claims, assembled.

  The kernel program and its reference compute the same function of their fifteen arguments on the extended reals: a
  three-layer graph convolution (per layer: project the node rows, gather the projected rows at the edges' sources,
  scale each by the edge's weight dinv[src] · dinv[dst], sum at the destinations, add the bias, take the maximum with
  zero), the mean of the node rows of every graph, and a three-layer perceptron. The two programs spell every host
  operation alike; they differ in where the projections, the bias steps and the perceptron run. The kernel program runs
  them in pipelined kernel calls, block of rows by block of rows, on operands narrowed to bf16. At the ideal values the
  narrowing is the identity, a product into a zero accumulator is the plain sum of products, and an entry of a product
  or of a bias step reads one row of its left operand: so each kernel call leaves in its output array exactly the
  whole-array function the reference applies (Proof/RegionDense.lean, RegionBias.lean, RegionMlp.lean), no finiteness
  being used anywhere and no sum reordered. Walking the kernel program's segments (Proof/Walk.lean) and naming the
  reference's term (Proof/RefBridge.lean) gives both results as ONE composition of named stages (Proof/Stages.lean) of
  the arguments, which agree by hypothesis.

  The three frame claims are the programs' runs with the result dropped; the idealization rewrote nothing, so its
  claim is trivial.
-/
import proofs.«175258_j44633300140823_1_alg».proof.Defs
import proofs.«175258_j44633300140823_1_alg».proof.Proof.Gen.Kernel
import proofs.«175258_j44633300140823_1_alg».proof.Proof.Gen.Kernel.Frame
import proofs.«175258_j44633300140823_1_alg».proof.Proof.Gen.KernelIdeal
import proofs.«175258_j44633300140823_1_alg».proof.Proof.Gen.KernelIdeal.Frame
import proofs.«175258_j44633300140823_1_alg».proof.Proof.Gen.ReferenceIdeal
import proofs.«175258_j44633300140823_1_alg».proof.Proof.Gen.Pre_finite_inputs
import proofs.«175258_j44633300140823_1_alg».proof.Proof.KernelRun
import proofs.«175258_j44633300140823_1_alg».proof.Proof.Walk
import proofs.«175258_j44633300140823_1_alg».proof.Proof.RefRunPatched
import proofs.«175258_j44633300140823_1_alg».proof.Proof.RefBridge
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the stages' composition of the arguments in their
    result arrays, and with their arguments as launched. -/
theorem algebraic : Cert.algebraic_KernelIdeal_ReferenceIdeal := by
  intro m ρ m' ρ' _ hagree
  refine ⟨fun c => Cert.Stages.final (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Walk.w15_out m ρ c), (h c).2⟩)
      (Cert.KernelIdeal.Result.run_result_args (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13, e14⟩ := hagree c
    rw [Cert.RefBridge.ref_final m' c, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
